-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_arg4 : FVec F S64x4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096x64 .f32) (main_arg3 : FVec F S64 .f32) (main_arg4 : FVec F S64x4096 .f32) (main_arg5 : IVec S64 1) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S1x64 : Shape := ⟨2, ![1, 64]⟩
abbrev S1024x1024 : Shape := ⟨2, ![1024, 1024]⟩
abbrev S1024x64 : Shape := ⟨2, ![1024, 64]⟩
abbrev S64x1024 : Shape := ⟨2, ![64, 1024]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 11
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x64, .f32⟩
  | .hbm, ⟨3, _⟩ => ⟨S64, .f32⟩
  | .hbm, ⟨4, _⟩ => ⟨S64x4096, .f32⟩
  | .hbm, ⟨5, _⟩ => ⟨S64, .i1⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S4096x4096, .bf16⟩
  | .hbm, ⟨10, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S64x1024, .f32⟩
  | .local _ .vmem, ⟨5, _⟩ => ⟨S64x1024, .f32⟩
  | .local _ .vmem, ⟨6, _⟩ => ⟨S1x64, .f32⟩
  | .local _ .vmem, ⟨7, _⟩ => ⟨S1024x1024, .bf16⟩
  | .local _ .vmem, ⟨8, _⟩ => ⟨S1024x1024, .bf16⟩
  | .local _ .vmem, ⟨9, _⟩ => ⟨S1024x512, .f32⟩
  | .local _ .vmem, ⟨10, _⟩ => ⟨S1024x512, .f32⟩
  | .local _ .vmem, ⟨11, _⟩ => ⟨S2048x512, .bf16⟩
  | .local _ .vmem, ⟨12, _⟩ => ⟨S2048x512, .bf16⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x64_S1024x64_0_0 : ∀ a, (![0, 0] : Fin 2 → Nat) a + S1024x64.size a ≤ S1024x64.size a
  h_S1024x64 : 0 < S1024x64.numel
  broadcasts_S1x64_S1024x64 : S1x64.Broadcasts S1024x64
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S1024x64_S64x1024_S1024x1024_1_0_0_1_n_n_wf : DotDims.WF S1024x64 S64x1024 S1024x1024 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x4096.size a
  hwx0_2 : ∀ i : grid0.Coords, EltTy.bits .f32 = 32 ∨ (Rect.block (s := S64x4096) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x4096.size a
  hwx1_2 : ∀ i : grid1.Coords, EltTy.bits .f32 = 32 ∨ (Rect.block (s := S8192x4096) S1024x2048.size (cc1_transform_2 i) (hinb1_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S1x64 : Shape := ⟨2, ![1, 64]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x64, .f32⟩
  | .hbm, ⟨3, _⟩ => ⟨S64, .f32⟩
  | .hbm, ⟨4, _⟩ => ⟨S64x4096, .f32⟩
  | .hbm, ⟨5, _⟩ => ⟨S64, .i1⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x4096 : S_.BroadcastsInDim S4096x4096 (![] : Fin 0 → Fin S4096x4096.rank)
  transposes_S4096x4096_S4096x4096_1_0 : S4096x4096.Transposes [1, 0] S4096x4096
  dot_S4096x64_S64x4096_S4096x4096_1_0_0_1_n_n_wf : DotDims.WF S4096x64 S64x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BitsWeff.lean ====
/-
  The first pallas_call of the kernel as printed (the word-level program), on its 4 × 4 grid: at point (j, k) the body reads the block (j, k)
  of the dense weight, rows j of the left low-rank factor, columns k of the right one and the one row of active
  scales, and stores ONE block: weight + 2 · ((left · scales) · right). It keeps nothing between points, so the
  region's invariant is only "the scoped buffers no window stages hold something, and the generator register is
  at some state". This file states what each window's staging buffer holds before and after the body at every
  point (the proof data), runs the body once on whole staging buffers, and concludes the body obligation at every
  point, at any float instance.
-/
import proofs.«128594_j20289425506440_2_alg».proof.Proof.Gen.Kernel.Launch
import proofs.«128594_j20289425506440_2_alg».proof.Proof.Gen.Kernel.Skeleton
import proofs.«128594_j20289425506440_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Weff

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block the body stores, from the four blocks it loads: scales, left factor, right factor, dense weight. -/
def stored (c : Dev nD) (t : Fin cfg0.N) : Vec F S1024x1024 .bf16 :=
  k0_pay1 (blk V c 3 t) (blk V c 1 t) (blk V c 2 t) (blk V c 0 t)

/-- The proof data: the arrays as the region finds them; after the body each input's buffer still at its block
    and the output's at the stored block; nothing carried between points; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => stored V c t
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = stored V c t := by dsimp only [dat]

/-- An input window's current staging buffer holds its block at every point, refetched there or not: where it is
    not refetched its block index has not moved, and the body left the block in place. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-! ## The body, run once on whole staging buffers -/

/-- The corner of a whole-buffer rectangle of a rank-2 shape is the origin. -/
theorem origin2 : (![0, 0] : Fin 2 → Nat) = fun _ => 0 := funext fun a => by fin_cases a <;> rfl

set_option maxHeartbeats 1000000 in
/-- From the four inputs' staging buffers at contents `xw`, `xp`, `xq`, `xl` and the output's at anything, the body runs
    to its return with the inputs' buffers as they were and the output's at the one block it stores. -/
theorem body_run (c : Dev nD) (E : Set ℕ) (i : grid0.Coords)
    (a2 : Memref sig .tc .vmem S1024x1024 .f32) (h2 : a2.IsWhole) (a3 : Memref sig .tc .vmem S1024x64 .f32) (h3 : a3.IsWhole)
    (a4 : Memref sig .tc .vmem S64x1024 .f32) (h4 : a4.IsWhole) (a5 : Memref sig .tc .vmem S1x64 .f32) (h5 : a5.IsWhole)
    (a6 : Memref sig .tc .vmem S1024x1024 .bf16) (h6 : a6.IsWhole)
    (xw : Vec F S1024x1024 .f32) (xp : Vec F S1024x64 .f32) (xq : Vec F S64x1024 .f32) (xl : Vec F S1x64 .f32) (K : PUnit → sProp 𝕄) :
    iprop(owns (c : Thread nD τ) a2 fullShare xw ∗ owns (c : Thread nD τ) a3 fullShare xp ∗ owns (c : Thread nD τ) a4 fullShare xq
        ∗ owns (c : Thread nD τ) a5 fullShare xl ∗ (∃ d, owns (c : Thread nD τ) a6 fullShare d)
        ∗ (iprop(owns (c : Thread nD τ) a2 fullShare xw ∗ owns (c : Thread nD τ) a3 fullShare xp ∗ owns (c : Thread nD τ) a4 fullShare xq
            ∗ owns (c : Thread nD τ) a5 fullShare xl ∗ owns (c : Thread nD τ) a6 fullShare (k0_pay1 xl xp xq xw)) -∗ K ⟨⟩))
      ⊢ wp frame (wpE (defs₀ (F := F)) Variants.none c none) E (cc0__weff_kernel i a2 h2 a3 h3 a4 h4 a5 h5 a6 h6) K := by
  simp only [cc0__weff_kernel_eq_skeleton]; unfold cc0__weff_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (View.cover_of_tiled _ S1024x1024.size (by rfl)), View.canon_unit_zero origin2]
  simp only [View.readAt_eq_ld, View.ld_unit_zero (S := S1x64) origin2, View.ld_unit_zero (S := S1024x64) origin2,
    View.ld_unit_zero (S := S64x1024) origin2, View.ld_unit_zero (S := S1024x1024) origin2]

/-! ## The body obligation at every grid point -/

/-- What the body is called with at point `t`: the invariant, what the core owes (nothing), and each window's current
    staging buffer at what it then holds. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- At any point the inputs' buffers hold their blocks, so the run applies; the invariant and what the core owes pass
    through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_run c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first pallas_call, at every point. -/
theorem body_obligation (c : Dev nD) : BodyObligation (dat (F := F) V c) (defs₀ (F := F)) Variants.none () Set.univ := fun t => by
  rw [bigSep_W0, bigSep_W0]
  exact body_at V c t

end Cert.Kernel.Weff

end
-- ==== Proof.BitsAcc.lean ====
/-
  The second pallas_call of the kernel as printed (the word-level program), on its 8 × 2 × 8 grid (rows, columns, K-blocks; the K axis
  innermost): at point (i, j, k) the body adds the product of block (i, k) of the activations with the transpose of
  block (j, k) of the effective weight onto an accumulator it keeps in a scratch buffer — zeroed first where k = 0 —
  and where k = 7 copies the accumulator into the output's block (i, j). So the scratch carries the partial sum of a
  run of eight consecutive points, and the output window is untouched except at the run's last point. This file
  states what the scratch holds after every point, the region's invariant built on it, the body's run in each of
  the three kinds of point (first of a run, middle, last), and the body obligation at every point, at any float
  instance.
-/
import proofs.«128594_j20289425506440_2_alg».proof.Proof.Gen.Kernel.Launch
import proofs.«128594_j20289425506440_2_alg».proof.Proof.Gen.Kernel.Skeleton
import proofs.«128594_j20289425506440_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kinds of grid point -/

/-- The body's first conditional: the K coordinate is 0 (the skeleton's scalar chain). -/
abbrev atFirst (i : grid1.Coords) : Prop :=
  (Scalar.cmpi .ne (Scalar.extui (Scalar.cmpi .eq (BitVec.ofNat 32 (i 2).val) 0#32)) 0#32) = 1#1
/-- The body's second conditional: the K coordinate is 7. -/
abbrev atLast (i : grid1.Coords) : Prop := k1_cond2 i = 1#1

/-- The K coordinate is the point's number modulo 8 (K is the innermost axis): decided over the 128 points. -/
theorem atFirst_iff : ∀ t : Fin cfg1.N, atFirst (grid1.coords t) ↔ t.val % 8 = 0 :=
  (by decide +kernel : ∀ t : Fin grid1.N, atFirst (grid1.coords t) ↔ t.val % 8 = 0)
theorem atLast_iff : ∀ t : Fin cfg1.N, atLast (grid1.coords t) ↔ t.val % 8 = 7 :=
  (by decide +kernel : ∀ t : Fin grid1.N, atLast (grid1.coords t) ↔ t.val % 8 = 7)

/-- Away from a run's last point the output window is idle and is not written back; at it, it is live. -/
theorem idle_out : ∀ t : Fin cfg1.N, ¬atLast (grid1.coords t) → cfg1.idle 2 (grid1.coords t) = true := by decide +kernel
theorem keep_out : ∀ t : Fin cfg1.N, ¬atLast (grid1.coords t) → (cfg1.win 2).flush t = false := by decide +kernel
theorem live_out : ∀ t : Fin cfg1.N, atLast (grid1.coords t) → cfg1.idle 2 (grid1.coords t) = false := by decide +kernel

/-- The corner of a whole-buffer rectangle of a rank-2 shape is the origin. -/
theorem origin2 : (![0, 0] : Fin 2 → Nat) = fun _ => 0 := funext fun a => by fin_cases a <;> rfl

/-- A list of stores whose LAST store covers the buffer covers it. -/
theorem cover_head {S : Shape} {e : EltTy} (hd : View.Piece (Elt F) S e) (tl : List (View.Piece (Elt F) S e))
    (h : ∀ y : S.Idx, ∃ p ∈ [hd], y ∈ p.1.set) : ∀ y : S.Idx, ∃ p ∈ hd :: tl, y ∈ p.1.set :=
  fun y => let ⟨p, hp, hy⟩ := h y; ⟨p, List.mem_cons.mpr (Or.inl (List.mem_singleton.mp hp)), hy⟩

/-! ## The body, run on whole buffers, in each kind of point -/

/-- The accumulator: a whole scoped buffer of the kernel's own, passed beside the windows. -/
abbrev scr : Memref sig .tc .vmem S1024x2048 .f32 := Memref.whole cc1_scratch0

set_option maxHeartbeats 1000000 in
/-- First point of a run: whatever the accumulator held, it ends at zero plus this point's product; the output's
    buffer is not touched. -/
theorem run_first (c : Dev nD) (E : Set ℕ) (i : grid1.Coords)
    (a3 : Memref sig .tc .vmem S1024x512 .f32) (h3 : a3.IsWhole) (a4 : Memref sig .tc .vmem S2048x512 .bf16) (h4 : a4.IsWhole)
    (a5 : Memref sig .tc .vmem S1024x2048 .f32) (h5 : a5.IsWhole) (a6 : Memref sig .tc .vmem S1024x2048 .f32) (h6 : a6.IsWhole)
    (hF : atFirst i) (hL : ¬atLast i)
    (x : Vec F S1024x512 .f32) (wv : Vec F S2048x512 .bf16) (o : Vec F S1024x2048 .f32) (K : PUnit → sProp 𝕄) :
    iprop(owns (c : Thread nD τ) a3 fullShare x ∗ owns (c : Thread nD τ) a4 fullShare wv ∗ owns (c : Thread nD τ) a5 fullShare o
        ∗ (∃ d, owns (c : Thread nD τ) a6 fullShare d)
        ∗ (iprop(owns (c : Thread nD τ) a3 fullShare x ∗ owns (c : Thread nD τ) a4 fullShare wv ∗ owns (c : Thread nD τ) a5 fullShare o
            ∗ owns (c : Thread nD τ) a6 fullShare (k1_pay2 x k1_pay1 wv)) -∗ K ⟨⟩))
      ⊢ wp frame (wpE (defs₀ (F := F)) Variants.none c none) E (cc1__matmul_kernel i a3 h3 a4 h4 a5 h5 a6 h6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, Hk⟩
  subst hf3; subst hf4
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; exact hf5
    iexact H5
  iexists _; isplitr
  swap; · iexact H6
  ipureintro
  sl_unfold_words
  rw [View.read_writes_eq_canon _ _ _ (cover_head _ _ (View.cover_of_tiled _ S1024x2048.size (by rfl))),
    View.canon_cons_unit_zero origin2, View.readCov_unit_zero (S := S1024x2048) _ origin2]
  simp only [View.readAt_eq_ld, View.ld_unit_zero (S := S1024x512) origin2, View.ld_unit_zero (S := S2048x512) origin2]

set_option maxHeartbeats 1000000 in
/-- Middle point of a run: the accumulator at `s` ends at `s` plus this point's product; the output's buffer is not
    touched. -/
theorem run_mid (c : Dev nD) (E : Set ℕ) (i : grid1.Coords)
    (a3 : Memref sig .tc .vmem S1024x512 .f32) (h3 : a3.IsWhole) (a4 : Memref sig .tc .vmem S2048x512 .bf16) (h4 : a4.IsWhole)
    (a5 : Memref sig .tc .vmem S1024x2048 .f32) (h5 : a5.IsWhole) (a6 : Memref sig .tc .vmem S1024x2048 .f32) (h6 : a6.IsWhole)
    (hF : ¬atFirst i) (hL : ¬atLast i)
    (x : Vec F S1024x512 .f32) (wv : Vec F S2048x512 .bf16) (o : Vec F S1024x2048 .f32) (s : Vec F S1024x2048 .f32) (K : PUnit → sProp 𝕄) :
    iprop(owns (c : Thread nD τ) a3 fullShare x ∗ owns (c : Thread nD τ) a4 fullShare wv ∗ owns (c : Thread nD τ) a5 fullShare o
        ∗ owns (c : Thread nD τ) a6 fullShare s
        ∗ (iprop(owns (c : Thread nD τ) a3 fullShare x ∗ owns (c : Thread nD τ) a4 fullShare wv ∗ owns (c : Thread nD τ) a5 fullShare o
            ∗ owns (c : Thread nD τ) a6 fullShare (k1_pay2 x s wv)) -∗ K ⟨⟩))
      ⊢ wp frame (wpE (defs₀ (F := F)) Variants.none c none) E (cc1__matmul_kernel i a3 h3 a4 h4 a5 h5 a6 h6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  subst hf3; subst hf4; subst hf6
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; exact hf5
    iexact H5
  iexists _; isplitr
  swap; · iexact H6
  ipureintro
  try sl_unfold_words
  rw [View.read_writes_eq_canon _ _ _ (cover_head _ _ (View.cover_of_tiled _ S1024x2048.size (by rfl))),
    View.canon_cons_unit_zero origin2]
  simp only [View.readAt_eq_ld, View.ld_unit_zero (S := S1024x512) origin2, View.ld_unit_zero (S := S2048x512) origin2,
    View.ld_unit_zero (S := S1024x2048) origin2]

set_option maxHeartbeats 1000000 in
/-- Last point of a run: the accumulator at `s` ends at `s` plus this point's product, and the output's buffer, whatever
    it held, ends at the same sum. -/
theorem run_last (c : Dev nD) (E : Set ℕ) (i : grid1.Coords)
    (a3 : Memref sig .tc .vmem S1024x512 .f32) (h3 : a3.IsWhole) (a4 : Memref sig .tc .vmem S2048x512 .bf16) (h4 : a4.IsWhole)
    (a5 : Memref sig .tc .vmem S1024x2048 .f32) (h5 : a5.IsWhole) (a6 : Memref sig .tc .vmem S1024x2048 .f32) (h6 : a6.IsWhole)
    (hF : ¬atFirst i) (hL : atLast i)
    (x : Vec F S1024x512 .f32) (wv : Vec F S2048x512 .bf16) (s : Vec F S1024x2048 .f32) (K : PUnit → sProp 𝕄) :
    iprop(owns (c : Thread nD τ) a3 fullShare x ∗ owns (c : Thread nD τ) a4 fullShare wv ∗ (∃ d, owns (c : Thread nD τ) a5 fullShare d)
        ∗ owns (c : Thread nD τ) a6 fullShare s
        ∗ (iprop(owns (c : Thread nD τ) a3 fullShare x ∗ owns (c : Thread nD τ) a4 fullShare wv
            ∗ owns (c : Thread nD τ) a5 fullShare (k1_pay2 x s wv)
            ∗ owns (c : Thread nD τ) a6 fullShare (k1_pay2 x s wv)) -∗ K ⟨⟩))
      ⊢ wp frame (wpE (defs₀ (F := F)) Variants.none c none) E (cc1__matmul_kernel i a3 h3 a4 h4 a5 h5 a6 h6) K := by
  simp only [cc1__matmul_kernel_eq_skeleton]; unfold cc1__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try sl_unfold_words
    rw [View.read_writes_eq_canon _ _ _ (cover_head _ _ (View.cover_of_tiled _ S1024x2048.size (by rfl))),
      View.canon_cons_unit_zero origin2, View.readCov_unit_zero (S := S1024x2048) _ origin2]
    simp only [View.readAt_eq_ld, View.ld_unit_zero (S := S1024x512) origin2, View.ld_unit_zero (S := S2048x512) origin2,
      View.ld_unit_zero (S := S1024x2048) origin2]
  iexists _; isplitr
  swap; · iexact H6
  ipureintro
  try sl_unfold_words
  rw [View.read_writes_eq_canon _ _ _ (cover_head _ _ (View.cover_of_tiled _ S1024x2048.size (by rfl))),
    View.canon_cons_unit_zero origin2]
  simp only [View.readAt_eq_ld, View.ld_unit_zero (S := S1024x512) origin2, View.ld_unit_zero (S := S2048x512) origin2,
    View.ld_unit_zero (S := S1024x2048) origin2]

/-! ## What the accumulator holds after every point -/

-- the TensorCore's buffer contents when the region is entered
variable (V : (c : Dev nD) → (b : Ref sig .tc) → Buf (Elt F) ((c : Thread nD τ).loc b))

/-- Window `w`'s block at grid point `t`, read off the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Point number `n`, read modulo the number of points. -/
def pt (n : ℕ) : Fin cfg1.N := ⟨n % 128, by show n % 128 < grid1.N; rw [N_1]; exact Nat.mod_lt _ (by decide)⟩

theorem pt_val (t : Fin cfg1.N) : pt t.val = t :=
  Fin.ext (Nat.mod_eq_of_lt (lt_of_lt_of_eq t.isLt (show cfg1.N = 128 from N_1)))

/-- The accumulator after the body at point `n`: this point's product added onto what the point before left, or onto
    zero where the point opens a run (its number a multiple of 8). -/
def accAfter (c : Dev nD) : ℕ → Vec F S1024x2048 .f32
  | 0 => k1_pay2 (blk V c 0 (pt 0)) k1_pay1 (blk V c 1 (pt 0))
  | n + 1 => k1_pay2 (blk V c 0 (pt (n + 1))) (if (n + 1) % 8 = 0 then k1_pay1 else accAfter c n) (blk V c 1 (pt (n + 1)))

theorem accAfter_first (c : Dev nD) (t : Fin cfg1.N) (h : t.val % 8 = 0) :
    accAfter V c t.val = k1_pay2 (blk V c 0 t) k1_pay1 (blk V c 1 t) := by
  obtain ⟨n, hn⟩ := t
  cases n with
  | zero => show k1_pay2 (blk V c 0 (pt 0)) k1_pay1 (blk V c 1 (pt 0)) = _; rw [pt_val ⟨0, hn⟩]
  | succ n =>
    show k1_pay2 (blk V c 0 (pt (n + 1))) (if (n + 1) % 8 = 0 then k1_pay1 else accAfter V c n) (blk V c 1 (pt (n + 1))) = _
    rw [if_pos h, pt_val ⟨n + 1, hn⟩]

theorem accAfter_next (c : Dev nD) (t : Fin cfg1.N) (h : ¬t.val % 8 = 0) :
    accAfter V c t.val = k1_pay2 (blk V c 0 t) (accAfter V c (t.val - 1)) (blk V c 1 t) := by
  obtain ⟨n, hn⟩ := t
  cases n with
  | zero => exact absurd (Nat.zero_mod _) h
  | succ n =>
    show k1_pay2 (blk V c 0 (pt (n + 1))) (if (n + 1) % 8 = 0 then k1_pay1 else accAfter V c n) (blk V c 1 (pt (n + 1))) = _
    rw [if_neg h, pt_val ⟨n + 1, hn⟩]; rfl

/-! ## The region's invariant -/

/-- The scoped buffers that are neither a staging buffer of this call nor its accumulator, each at something, and
    the generator register at some state: what the body never touches. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ r, prngReg c r))

/-- Before point `n`: where `n` opens a run the accumulator holds anything (the body zeroes it first), so the
    invariant is the plain one; elsewhere the accumulator holds what the point before left. -/
def inv (c : Dev nD) (n : ℕ) : sProp 𝕄 :=
  if n % 8 = 0 then Pipeline.ΦA spec1 c else iprop(owns (c : Thread nD τ) scr fullShare (accAfter V c (n - 1)) ∗ others c)

theorem inv_open (c : Dev nD) :
    (Pipeline.ΦA spec1 c : sProp 𝕄) ⊢ iprop((∃ d, owns (c : Thread nD τ) scr fullShare d) ∗ others c) := by
  unfold Pipeline.ΦA others; rw [scopedRest1_eq]; simp only [scr, owns_whole]
  iintro ⟨⟨B1, B2, B3, B4, B5, B6, B7, B8, B9, HS⟩, Hg⟩
  isplitl [HS]; · iexact HS
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact Hg

theorem inv_close (c : Dev nD) :
    iprop((∃ d, owns (c : Thread nD τ) scr fullShare d) ∗ others c) ⊢ (Pipeline.ΦA spec1 c : sProp 𝕄) := by
  unfold Pipeline.ΦA others; rw [scopedRest1_eq]; simp only [scr, owns_whole]
  iintro ⟨HS, B1, B2, B3, B4, B5, B6, B7, B8, B9, Hg⟩
  isplitr [Hg]
  swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact HS

/-! ## The proof data -/

/-- The arrays as the region finds them; after the body each input's buffer still at its block and, where the
    output is stored, its buffer at the accumulator's contents; the invariant above; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => accAfter V c t.val
  Φ t := inv V c t.val
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = accAfter V c t.val := by dsimp only [dat]

/-- Both inputs are refetched at every point: their current staging buffers hold their blocks. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem hin (c : Dev nD) : (Pipeline.ΦA spec1 c : sProp 𝕄) ⊢ (dat V c).Φ 0 := by
  rw [show (dat V c).Φ 0 = inv V c 0 from rfl, show inv V c 0 = Pipeline.ΦA spec1 c from if_pos rfl]
  try exact Idealize.SL.BI.Entails.refl _

theorem hout (c : Dev nD) : (dat V c).Φ (Fin.last cfg1.N) ⊢ (Pipeline.ΦA spec1 c : sProp 𝕄) := by
  rw [show (dat V c).Φ (Fin.last cfg1.N) = inv V c (Fin.last cfg1.N).val from rfl, Fin.val_last,
    show cfg1.N = 128 from N_1, show inv V c 128 = Pipeline.ΦA spec1 c from if_pos (by decide)]
  try exact Idealize.SL.BI.Entails.refl _

/-! ## The body obligation at every grid point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point the inputs' buffers hold their blocks; the point's number modulo 8 says which kind it is. A run's
    first point takes the accumulator at anything out of the plain invariant; a later point takes it at what the
    point before left; each leaves it at this point's sum, and the run's last point folds it back into the plain
    invariant after copying it to the output's buffer. Elsewhere the output's buffer goes back as it came. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).leavesExact 0 t = owns (c : Thread nD τ) (st1_0 t) fullShare ((dat V c).after 0 t) from rfl, after_0]
  rw [show (dat V c).leavesExact 1 t = owns (c : Thread nD τ) (st1_1 t) fullShare ((dat V c).after 1 t) from rfl, after_1]
  rw [show (dat V c).Φ t.castSucc = inv V c t.val from rfl, show (dat V c).Φ t.succ = inv V c (t.val + 1) from rfl]
  have hN : t.val < 128 := lt_of_lt_of_eq t.isLt (show cfg1.N = 128 from N_1)
  by_cases h0 : t.val % 8 = 0
  · have hF : atFirst (grid1.coords t) := (atFirst_iff t).mpr h0
    have hL : ¬atLast (grid1.coords t) := fun h => by have := (atLast_iff t).mp h; omega
    rw [Dat.leavesExact_idle (dat V c) 2 t (idle_out t hL) (keep_out t hL)]
    rw [show inv V c t.val = Pipeline.ΦA spec1 c from if_pos h0,
      show inv V c (t.val + 1) = iprop(owns (c : Thread nD τ) scr fullShare (accAfter V c t.val) ∗ others c) from
        if_neg (by omega)]
    rw [accAfter_first V c t h0]
    have hopen := inv_open (F := F) c
    iintro ⟨HP, Ho, ⟨%d0, H0⟩, ⟨%d1, H1⟩, ⟨%d2, H2⟩⟩
    ihave HQ := hopen $$ HP
    icases HQ with ⟨HS, HR⟩
    iapply (run_first c Set.univ _ _ _ _ _ _ _ _ _ hF hL (blk V c 0 t) (blk V c 1 t) _ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexists _; iexact H2
  · have hF : ¬atFirst (grid1.coords t) := fun h => h0 ((atFirst_iff t).mp h)
    by_cases h7 : t.val % 8 = 7
    · have hL : atLast (grid1.coords t) := (atLast_iff t).mpr h7
      rw [show (dat V c).leavesExact 2 t = owns (c : Thread nD τ) (st1_2 t) fullShare ((dat V c).after 2 t) from by
        unfold Dat.leavesExact; rw [live_out t hL], after_2]
      rw [show inv V c t.val = iprop(owns (c : Thread nD τ) scr fullShare (accAfter V c (t.val - 1)) ∗ others c) from if_neg h0,
        show inv V c (t.val + 1) = Pipeline.ΦA spec1 c from if_pos (by omega)]
      rw [accAfter_next V c t h0]
      iintro ⟨⟨HS, HR⟩, Ho, ⟨%d0, H0⟩, ⟨%d1, H1⟩, ⟨%d2, H2⟩⟩
      iapply (run_last c Set.univ _ _ _ _ _ _ _ _ _ hF hL (blk V c 0 t) (blk V c 1 t) (accAfter V c (t.val - 1)) _)
      isplitl [H0]; · iexact H0
      isplitl [H1]; · iexact H1
      isplitl [H2]; · iexists _; iexact H2
      isplitl [HS]; · iexact HS
      iintro ⟨H0, H1, H2, HS⟩
      isplitl [HS HR]
      · iapply (inv_close c)
        isplitl [HS]; · iexists _; iexact HS
        iexact HR
      isplitl [Ho]; · iexact Ho
      isplitl [H0]; · iexact H0
      isplitl [H1]; · iexact H1
      iexact H2
    · have hL : ¬atLast (grid1.coords t) := fun h => h7 ((atLast_iff t).mp h)
      rw [Dat.leavesExact_idle (dat V c) 2 t (idle_out t hL) (keep_out t hL)]
      rw [show inv V c t.val = iprop(owns (c : Thread nD τ) scr fullShare (accAfter V c (t.val - 1)) ∗ others c) from if_neg h0,
        show inv V c (t.val + 1) = iprop(owns (c : Thread nD τ) scr fullShare (accAfter V c t.val) ∗ others c) from
          if_neg (by omega)]
      rw [accAfter_next V c t h0]
      iintro ⟨⟨HS, HR⟩, Ho, ⟨%d0, H0⟩, ⟨%d1, H1⟩, ⟨%d2, H2⟩⟩
      iapply (run_mid c Set.univ _ _ _ _ _ _ _ _ _ hF hL (blk V c 0 t) (blk V c 1 t) _ (accAfter V c (t.val - 1)) _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The body obligation of the second pallas_call, at every point. -/
theorem body_obligation (c : Dev nD) : BodyObligation (dat (F := F) V c) (defs₀ (F := F)) Variants.none () Set.univ := fun t => by
  rw [bigSep_W1, bigSep_W1]
  exact body_at V c t

end Cert.Kernel.Acc

end
-- ==== Proof.BitsWhole.lean ====
/-
  The whole program of the kernel as printed (the word-level program): three host operations (the rank mask turned into floats, multiplied into
  the scales, reshaped to a row), then the two pallas_calls. The buffers' contents are followed through the three
  segments: as launched; after the host operations; after the first call, which changes only the effective-weight
  array; after the second, which changes only the result array. Each call is entered from "every unscoped buffer
  at the contents before it" and left at the contents after it, its body obligation the one proved for it. Every
  weakly fair execution therefore terminates with every unscoped buffer at the last contents — the arguments as
  launched, the result at what the second call's write-backs leave.
-/
import proofs.«128594_j20289425506440_2_alg».proof.Proof.BitsWeff
import proofs.«128594_j20289425506440_2_alg».proof.Proof.BitsAcc
import Idealize.ShloMosaic.Lib.Pipeline.Frame
import Idealize.ShloMosaic.Lib.Pipeline.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- As launched. -/
abbrev W0 : Dev nD → Valuation τ sig (Elt F) := fun c b => (s₀ m ρ).mem ((c : Dev nD), b)
/-- After the host operations: where the first call is entered. -/
abbrev W1 : Dev nD → Valuation τ sig (Elt F) := fun c => StableHlo.after hostOps0 (W0 m ρ c)
abbrev Va : (c : Dev nD) → (b : Ref sig .tc) → Buf (Elt F) ((c : Thread nD τ).loc b) := fun c b => W1 m ρ c b
/-- After the first call: its arrays at what its write-backs leave, every other buffer as entered. -/
def W2 (c : Dev nD) : Valuation τ sig (Elt F) :=
  Pipeline.withArrays spec0 c (W1 m ρ c) fun w => (Weff.dat (Va m ρ) c).arrAt w cfg0.N
theorem W2_arr (c : Dev nD) (w : Fin cfg0.W) :
    W2 m ρ c (Proc.devRef .tc (Pipeline.arrRef spec0 w)) = (Weff.dat (Va m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vb : (c : Dev nD) → (b : Ref sig .tc) → Buf (Elt F) ((c : Thread nD τ).loc b) := fun c b => W2 m ρ c b
theorem exit0_arr (c : Dev nD) (w : Fin cfg0.W) : (Weff.dat (Va m ρ) c).arrAt w cfg0.N = Vb m ρ c (Pipeline.arrRef spec0 w) :=
  (W2_arr m ρ c w).symm
theorem exit0_rest (c : Dev nD) : ∀ b, b ∉ Finset.univ.image (Pipeline.arrRef spec0) → Vb m ρ c b = Va m ρ c b :=
  fun b hb => W2_of_ne m ρ c b fun w e => hb (Finset.mem_image.mpr ⟨w, Finset.mem_univ _, e⟩)
/-- After the second call. -/
def W3 (c : Dev nD) : Valuation τ sig (Elt F) :=
  Pipeline.withArrays spec1 c (W2 m ρ c) fun w => (Acc.dat (Vb m ρ) c).arrAt w cfg1.N
theorem W3_arr (c : Dev nD) (w : Fin cfg1.W) :
    W3 m ρ c (Proc.devRef .tc (Pipeline.arrRef spec1 w)) = (Acc.dat (Vb m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vc : (c : Dev nD) → (b : Ref sig .tc) → Buf (Elt F) ((c : Thread nD τ).loc b) := fun c b => W3 m ρ c b
theorem exit1_arr (c : Dev nD) (w : Fin cfg1.W) : (Acc.dat (Vb m ρ) c).arrAt w cfg1.N = Vc m ρ c (Pipeline.arrRef spec1 w) :=
  (W3_arr m ρ c w).symm
theorem exit1_rest (c : Dev nD) : ∀ b, b ∉ Finset.univ.image (Pipeline.arrRef spec1) → Vc m ρ c b = Vb m ρ c b :=
  fun b hb => W3_of_ne m ρ c b fun w e => hb (Finset.mem_image.mpr ⟨w, Finset.mem_univ _, e⟩)

/-! ## No segment writes an argument: a call reads it through an input window or passes it by -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((Acc.dat (Vb m ρ) c).arrAt_in 0 rfl _).trans (Acc.A_eq (Vb m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((Weff.dat (Va m ρ) c).arrAt_in 0 rfl _).trans (Weff.A_eq (Va m ρ) c 0))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((Weff.dat (Va m ρ) c).arrAt_in 1 rfl _).trans (Weff.A_eq (Va m ρ) c 1))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 2).trans (((Weff.dat (Va m ρ) c).arrAt_in 2 rfl _).trans (Weff.A_eq (Va m ρ) c 2))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg5) := rfl

/-! ## The proof data of both calls, and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Weff.dat (Va m ρ) c
  | ⟨1, _⟩ => fun c => Acc.dat (Vb m ρ) c
abbrev 𝒱₀ : Variants := Variants.none
abbrev L : GSem nD τ sig → Finset Unit := fun _ => ∅
abbrev lv : GSem nD τ sig → Unit → ℕ := fun _ _ => 0
/-- The core's generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as a segment over the unscoped buffers. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-! ## The two calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Weff.body_obligation (Va m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Acc.body_obligation (Vb m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Acc.hin (Vb m ρ) c)
    unfold Pipeline.ΦA
    iintro ⟨Hp, -, Hr⟩
    isplitl [Hr]; · iexact Hr
    iexact Hp
  hout c := by
    rw [Pipeline.ownSems0_none]
    refine BIBase.Entails.trans (Acc.hout (Vb m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hostSeg m ρ), .region (reg0 m ρ), .region (reg1 m ρ) ]

theorem main_run (c : Dev nD) : main (F := F) c = Pipeline.Seg.run (segs m ρ) := (main_chain c).trans (by chain_rfl)

set_option backward.isDefEq.respectTransparency.types false in
/-- Every weakly fair execution terminates, nothing faulting, with every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W3 m ρ c) ∗ ∃ r, prngReg c r))
    (hch := ⟨fun _ => .rfl, fun _ => .rfl, fun _ => .rfl, fun c => by
      show iprop(StableHlo.held (c : Thread nD τ) (Pipeline.ucRefs τ sig) (W3 m ρ c) ∗ R c)
        ⊢ iprop((StableHlo.held (c : Thread nD τ) (Pipeline.ucRefs τ sig) (W3 m ρ c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim's post at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The same run naming the result: the result array ends at what the second call's write-backs leave. -/
theorem run_result : θ_run defs (onTc (τ := τ) (main (F := F))) ⟨m, fun _ => 0, ρ⟩ (fun r => ∀ c : Dev nD,
      r.2.mem ((c.tc : Thread nD τ).loc main_v4) = (Acc.dat (Vb m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.Kernel.Whole

end
-- ==== Proof.IdealWeff.lean ====
/-
  The first pallas_call of the idealized kernel, on its 4 × 4 grid: at point (j, k) the body reads the block (j, k)
  of the dense weight, rows j of the left low-rank factor, columns k of the right one and the one row of active
  scales, and stores ONE block: weight + 2 · ((left · scales) · right). It keeps nothing between points, so the
  region's invariant is only "the scoped buffers no window stages hold something, and the generator register is
  at some state". This file states what each window's staging buffer holds before and after the body at every
  point (the proof data), runs the body once on whole staging buffers, and concludes the body obligation at every
  point, at any float instance.
-/
import proofs.«128594_j20289425506440_2_alg».proof.Proof.Gen.KernelIdeal.Launch
import proofs.«128594_j20289425506440_2_alg».proof.Proof.Gen.KernelIdeal.Skeleton
import proofs.«128594_j20289425506440_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Weff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block the body stores, from the four blocks it loads: scales, left factor, right factor, dense weight. -/
def stored (c : Dev nD) (t : Fin cfg0.N) : Vec F S1024x1024 .bf16 :=
  k0_pay1 (blk V c 3 t) (blk V c 1 t) (blk V c 2 t) (blk V c 0 t)

/-- The proof data: the arrays as the region finds them; after the body each input's buffer still at its block
    and the output's at the stored block; nothing carried between points; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => stored V c t
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = stored V c t := by dsimp only [dat]

/-- An input window's current staging buffer holds its block at every point, refetched there or not: where it is
    not refetched its block index has not moved, and the body left the block in place. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-! ## The body, run once on whole staging buffers -/

/-- The corner of a whole-buffer rectangle of a rank-2 shape is the origin. -/
theorem origin2 : (![0, 0] : Fin 2 → Nat) = fun _ => 0 := funext fun a => by fin_cases a <;> rfl

set_option maxHeartbeats 1000000 in
/-- From the four inputs' staging buffers at contents `xw`, `xp`, `xq`, `xl` and the output's at anything, the body runs
    to its return with the inputs' buffers as they were and the output's at the one block it stores. -/
theorem body_run (c : Dev nD) (E : Set ℕ) (i : grid0.Coords)
    (a2 : Memref sig .tc .vmem S1024x1024 .f32) (h2 : a2.IsWhole) (a3 : Memref sig .tc .vmem S1024x64 .f32) (h3 : a3.IsWhole)
    (a4 : Memref sig .tc .vmem S64x1024 .f32) (h4 : a4.IsWhole) (a5 : Memref sig .tc .vmem S1x64 .f32) (h5 : a5.IsWhole)
    (a6 : Memref sig .tc .vmem S1024x1024 .bf16) (h6 : a6.IsWhole)
    (xw : Vec F S1024x1024 .f32) (xp : Vec F S1024x64 .f32) (xq : Vec F S64x1024 .f32) (xl : Vec F S1x64 .f32) (K : PUnit → sProp 𝕄) :
    iprop(owns (c : Thread nD τ) a2 fullShare xw ∗ owns (c : Thread nD τ) a3 fullShare xp ∗ owns (c : Thread nD τ) a4 fullShare xq
        ∗ owns (c : Thread nD τ) a5 fullShare xl ∗ (∃ d, owns (c : Thread nD τ) a6 fullShare d)
        ∗ (iprop(owns (c : Thread nD τ) a2 fullShare xw ∗ owns (c : Thread nD τ) a3 fullShare xp ∗ owns (c : Thread nD τ) a4 fullShare xq
            ∗ owns (c : Thread nD τ) a5 fullShare xl ∗ owns (c : Thread nD τ) a6 fullShare (k0_pay1 xl xp xq xw)) -∗ K ⟨⟩))
      ⊢ wp frame (wpE (defs₀ (F := F)) Variants.none c none) E (cc0__weff_kernel i a2 h2 a3 h3 a4 h4 a5 h5 a6 h6) K := by
  simp only [cc0__weff_kernel_eq_skeleton]; unfold cc0__weff_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (View.cover_of_tiled _ S1024x1024.size (by rfl)), View.canon_unit_zero origin2]
  simp only [View.readAt_eq_ld, View.ld_unit_zero (S := S1x64) origin2, View.ld_unit_zero (S := S1024x64) origin2,
    View.ld_unit_zero (S := S64x1024) origin2, View.ld_unit_zero (S := S1024x1024) origin2]

/-! ## The body obligation at every grid point -/

/-- What the body is called with at point `t`: the invariant, what the core owes (nothing), and each window's current
    staging buffer at what it then holds. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- At any point the inputs' buffers hold their blocks, so the run applies; the invariant and what the core owes pass
    through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_run c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first pallas_call, at every point. -/
theorem body_obligation (c : Dev nD) : BodyObligation (dat (F := F) V c) (defs₀ (F := F)) Variants.none () Set.univ := fun t => by
  rw [bigSep_W0, bigSep_W0]
  exact body_at V c t

end Cert.KernelIdeal.Weff

end
-- ==== Proof.IdealAcc.lean ====
/-
  The second pallas_call of the idealized kernel, on its 8 × 2 × 8 grid (rows, columns, K-blocks; the K axis
  innermost): at point (i, j, k) the body adds the product of block (i, k) of the activations with the transpose of
  block (j, k) of the effective weight onto an accumulator it keeps in a scratch buffer — zeroed first where k = 0 —
  and where k = 7 copies the accumulator into the output's block (i, j). So the scratch carries the partial sum of a
  run of eight consecutive points, and the output window is untouched except at the run's last point. This file
  states what the scratch holds after every point, the region's invariant built on it, the body's run in each of
  the three kinds of point (first of a run, middle, last), and the body obligation at every point, at any float
  instance.
-/
import proofs.«128594_j20289425506440_2_alg».proof.Proof.Gen.KernelIdeal.Launch
import proofs.«128594_j20289425506440_2_alg».proof.Proof.Gen.KernelIdeal.Skeleton
import proofs.«128594_j20289425506440_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kinds of grid point -/

/-- The body's first conditional: the K coordinate is 0 (the skeleton's scalar chain). -/
abbrev atFirst (i : grid1.Coords) : Prop :=
  (Scalar.cmpi .ne (Scalar.extui (Scalar.cmpi .eq (BitVec.ofNat 32 (i 2).val) 0#32)) 0#32) = 1#1
/-- The body's second conditional: the K coordinate is 7. -/
abbrev atLast (i : grid1.Coords) : Prop := k1_cond2 i = 1#1

/-- The K coordinate is the point's number modulo 8 (K is the innermost axis): decided over the 128 points. -/
theorem atFirst_iff : ∀ t : Fin cfg1.N, atFirst (grid1.coords t) ↔ t.val % 8 = 0 :=
  (by decide +kernel : ∀ t : Fin grid1.N, atFirst (grid1.coords t) ↔ t.val % 8 = 0)
theorem atLast_iff : ∀ t : Fin cfg1.N, atLast (grid1.coords t) ↔ t.val % 8 = 7 :=
  (by decide +kernel : ∀ t : Fin grid1.N, atLast (grid1.coords t) ↔ t.val % 8 = 7)

/-- Away from a run's last point the output window is idle and is not written back; at it, it is live. -/
theorem idle_out : ∀ t : Fin cfg1.N, ¬atLast (grid1.coords t) → cfg1.idle 2 (grid1.coords t) = true := by decide +kernel
theorem keep_out : ∀ t : Fin cfg1.N, ¬atLast (grid1.coords t) → (cfg1.win 2).flush t = false := by decide +kernel
theorem live_out : ∀ t : Fin cfg1.N, atLast (grid1.coords t) → cfg1.idle 2 (grid1.coords t) = false := by decide +kernel

/-- The corner of a whole-buffer rectangle of a rank-2 shape is the origin. -/
theorem origin2 : (![0, 0] : Fin 2 → Nat) = fun _ => 0 := funext fun a => by fin_cases a <;> rfl

/-- A list of stores whose LAST store covers the buffer covers it. -/
theorem cover_head {S : Shape} {e : EltTy} (hd : View.Piece (Elt F) S e) (tl : List (View.Piece (Elt F) S e))
    (h : ∀ y : S.Idx, ∃ p ∈ [hd], y ∈ p.1.set) : ∀ y : S.Idx, ∃ p ∈ hd :: tl, y ∈ p.1.set :=
  fun y => let ⟨p, hp, hy⟩ := h y; ⟨p, List.mem_cons.mpr (Or.inl (List.mem_singleton.mp hp)), hy⟩

/-! ## The body, run on whole buffers, in each kind of point -/

/-- The accumulator: a whole scoped buffer of the kernel's own, passed beside the windows. -/
abbrev scr : Memref sig .tc .vmem S1024x2048 .f32 := Memref.whole cc1_scratch0

set_option maxHeartbeats 1000000 in
/-- First point of a run: whatever the accumulator held, it ends at zero plus this point's product; the output's
    buffer is not touched. -/
theorem run_first (c : Dev nD) (E : Set ℕ) (i : grid1.Coords)
    (a3 : Memref sig .tc .vmem S1024x512 .f32) (h3 : a3.IsWhole) (a4 : Memref sig .tc .vmem S2048x512 .bf16) (h4 : a4.IsWhole)
    (a5 : Memref sig .tc .vmem S1024x2048 .f32) (h5 : a5.IsWhole) (a6 : Memref sig .tc .vmem S1024x2048 .f32) (h6 : a6.IsWhole)
    (hF : atFirst i) (hL : ¬atLast i)
    (x : Vec F S1024x512 .f32) (wv : Vec F S2048x512 .bf16) (o : Vec F S1024x2048 .f32) (K : PUnit → sProp 𝕄) :
    iprop(owns (c : Thread nD τ) a3 fullShare x ∗ owns (c : Thread nD τ) a4 fullShare wv ∗ owns (c : Thread nD τ) a5 fullShare o
        ∗ (∃ d, owns (c : Thread nD τ) a6 fullShare d)
        ∗ (iprop(owns (c : Thread nD τ) a3 fullShare x ∗ owns (c : Thread nD τ) a4 fullShare wv ∗ owns (c : Thread nD τ) a5 fullShare o
            ∗ owns (c : Thread nD τ) a6 fullShare (k1_pay2 x k1_pay1 wv)) -∗ K ⟨⟩))
      ⊢ wp frame (wpE (defs₀ (F := F)) Variants.none c none) E (cc1__matmul_kernel i a3 h3 a4 h4 a5 h5 a6 h6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, Hk⟩
  subst hf3; subst hf4
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; exact hf5
    iexact H5
  iexists _; isplitr
  swap; · iexact H6
  ipureintro
  sl_unfold_words
  rw [View.read_writes_eq_canon _ _ _ (cover_head _ _ (View.cover_of_tiled _ S1024x2048.size (by rfl))),
    View.canon_cons_unit_zero origin2, View.readCov_unit_zero (S := S1024x2048) _ origin2]
  simp only [View.readAt_eq_ld, View.ld_unit_zero (S := S1024x512) origin2, View.ld_unit_zero (S := S2048x512) origin2]

set_option maxHeartbeats 1000000 in
/-- Middle point of a run: the accumulator at `s` ends at `s` plus this point's product; the output's buffer is not
    touched. -/
theorem run_mid (c : Dev nD) (E : Set ℕ) (i : grid1.Coords)
    (a3 : Memref sig .tc .vmem S1024x512 .f32) (h3 : a3.IsWhole) (a4 : Memref sig .tc .vmem S2048x512 .bf16) (h4 : a4.IsWhole)
    (a5 : Memref sig .tc .vmem S1024x2048 .f32) (h5 : a5.IsWhole) (a6 : Memref sig .tc .vmem S1024x2048 .f32) (h6 : a6.IsWhole)
    (hF : ¬atFirst i) (hL : ¬atLast i)
    (x : Vec F S1024x512 .f32) (wv : Vec F S2048x512 .bf16) (o : Vec F S1024x2048 .f32) (s : Vec F S1024x2048 .f32) (K : PUnit → sProp 𝕄) :
    iprop(owns (c : Thread nD τ) a3 fullShare x ∗ owns (c : Thread nD τ) a4 fullShare wv ∗ owns (c : Thread nD τ) a5 fullShare o
        ∗ owns (c : Thread nD τ) a6 fullShare s
        ∗ (iprop(owns (c : Thread nD τ) a3 fullShare x ∗ owns (c : Thread nD τ) a4 fullShare wv ∗ owns (c : Thread nD τ) a5 fullShare o
            ∗ owns (c : Thread nD τ) a6 fullShare (k1_pay2 x s wv)) -∗ K ⟨⟩))
      ⊢ wp frame (wpE (defs₀ (F := F)) Variants.none c none) E (cc1__matmul_kernel i a3 h3 a4 h4 a5 h5 a6 h6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  subst hf3; subst hf4; subst hf6
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; exact hf5
    iexact H5
  iexists _; isplitr
  swap; · iexact H6
  ipureintro
  try sl_unfold_words
  rw [View.read_writes_eq_canon _ _ _ (cover_head _ _ (View.cover_of_tiled _ S1024x2048.size (by rfl))),
    View.canon_cons_unit_zero origin2]
  simp only [View.readAt_eq_ld, View.ld_unit_zero (S := S1024x512) origin2, View.ld_unit_zero (S := S2048x512) origin2,
    View.ld_unit_zero (S := S1024x2048) origin2]

set_option maxHeartbeats 1000000 in
/-- Last point of a run: the accumulator at `s` ends at `s` plus this point's product, and the output's buffer, whatever
    it held, ends at the same sum. -/
theorem run_last (c : Dev nD) (E : Set ℕ) (i : grid1.Coords)
    (a3 : Memref sig .tc .vmem S1024x512 .f32) (h3 : a3.IsWhole) (a4 : Memref sig .tc .vmem S2048x512 .bf16) (h4 : a4.IsWhole)
    (a5 : Memref sig .tc .vmem S1024x2048 .f32) (h5 : a5.IsWhole) (a6 : Memref sig .tc .vmem S1024x2048 .f32) (h6 : a6.IsWhole)
    (hF : ¬atFirst i) (hL : atLast i)
    (x : Vec F S1024x512 .f32) (wv : Vec F S2048x512 .bf16) (s : Vec F S1024x2048 .f32) (K : PUnit → sProp 𝕄) :
    iprop(owns (c : Thread nD τ) a3 fullShare x ∗ owns (c : Thread nD τ) a4 fullShare wv ∗ (∃ d, owns (c : Thread nD τ) a5 fullShare d)
        ∗ owns (c : Thread nD τ) a6 fullShare s
        ∗ (iprop(owns (c : Thread nD τ) a3 fullShare x ∗ owns (c : Thread nD τ) a4 fullShare wv
            ∗ owns (c : Thread nD τ) a5 fullShare (k1_pay2 x s wv)
            ∗ owns (c : Thread nD τ) a6 fullShare (k1_pay2 x s wv)) -∗ K ⟨⟩))
      ⊢ wp frame (wpE (defs₀ (F := F)) Variants.none c none) E (cc1__matmul_kernel i a3 h3 a4 h4 a5 h5 a6 h6) K := by
  simp only [cc1__matmul_kernel_eq_skeleton]; unfold cc1__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try sl_unfold_words
    rw [View.read_writes_eq_canon _ _ _ (cover_head _ _ (View.cover_of_tiled _ S1024x2048.size (by rfl))),
      View.canon_cons_unit_zero origin2, View.readCov_unit_zero (S := S1024x2048) _ origin2]
    simp only [View.readAt_eq_ld, View.ld_unit_zero (S := S1024x512) origin2, View.ld_unit_zero (S := S2048x512) origin2,
      View.ld_unit_zero (S := S1024x2048) origin2]
  iexists _; isplitr
  swap; · iexact H6
  ipureintro
  try sl_unfold_words
  rw [View.read_writes_eq_canon _ _ _ (cover_head _ _ (View.cover_of_tiled _ S1024x2048.size (by rfl))),
    View.canon_cons_unit_zero origin2]
  simp only [View.readAt_eq_ld, View.ld_unit_zero (S := S1024x512) origin2, View.ld_unit_zero (S := S2048x512) origin2,
    View.ld_unit_zero (S := S1024x2048) origin2]

/-! ## What the accumulator holds after every point -/

-- the TensorCore's buffer contents when the region is entered
variable (V : (c : Dev nD) → (b : Ref sig .tc) → Buf (Elt F) ((c : Thread nD τ).loc b))

/-- Window `w`'s block at grid point `t`, read off the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Point number `n`, read modulo the number of points. -/
def pt (n : ℕ) : Fin cfg1.N := ⟨n % 128, by show n % 128 < grid1.N; rw [N_1]; exact Nat.mod_lt _ (by decide)⟩

theorem pt_val (t : Fin cfg1.N) : pt t.val = t :=
  Fin.ext (Nat.mod_eq_of_lt (lt_of_lt_of_eq t.isLt (show cfg1.N = 128 from N_1)))

/-- The accumulator after the body at point `n`: this point's product added onto what the point before left, or onto
    zero where the point opens a run (its number a multiple of 8). -/
def accAfter (c : Dev nD) : ℕ → Vec F S1024x2048 .f32
  | 0 => k1_pay2 (blk V c 0 (pt 0)) k1_pay1 (blk V c 1 (pt 0))
  | n + 1 => k1_pay2 (blk V c 0 (pt (n + 1))) (if (n + 1) % 8 = 0 then k1_pay1 else accAfter c n) (blk V c 1 (pt (n + 1)))

theorem accAfter_first (c : Dev nD) (t : Fin cfg1.N) (h : t.val % 8 = 0) :
    accAfter V c t.val = k1_pay2 (blk V c 0 t) k1_pay1 (blk V c 1 t) := by
  obtain ⟨n, hn⟩ := t
  cases n with
  | zero => show k1_pay2 (blk V c 0 (pt 0)) k1_pay1 (blk V c 1 (pt 0)) = _; rw [pt_val ⟨0, hn⟩]
  | succ n =>
    show k1_pay2 (blk V c 0 (pt (n + 1))) (if (n + 1) % 8 = 0 then k1_pay1 else accAfter V c n) (blk V c 1 (pt (n + 1))) = _
    rw [if_pos h, pt_val ⟨n + 1, hn⟩]

theorem accAfter_next (c : Dev nD) (t : Fin cfg1.N) (h : ¬t.val % 8 = 0) :
    accAfter V c t.val = k1_pay2 (blk V c 0 t) (accAfter V c (t.val - 1)) (blk V c 1 t) := by
  obtain ⟨n, hn⟩ := t
  cases n with
  | zero => exact absurd (Nat.zero_mod _) h
  | succ n =>
    show k1_pay2 (blk V c 0 (pt (n + 1))) (if (n + 1) % 8 = 0 then k1_pay1 else accAfter V c n) (blk V c 1 (pt (n + 1))) = _
    rw [if_neg h, pt_val ⟨n + 1, hn⟩]; rfl

/-! ## The region's invariant -/

/-- The scoped buffers that are neither a staging buffer of this call nor its accumulator, each at something, and
    the generator register at some state: what the body never touches. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ r, prngReg c r))

/-- Before point `n`: where `n` opens a run the accumulator holds anything (the body zeroes it first), so the
    invariant is the plain one; elsewhere the accumulator holds what the point before left. -/
def inv (c : Dev nD) (n : ℕ) : sProp 𝕄 :=
  if n % 8 = 0 then Pipeline.ΦA spec1 c else iprop(owns (c : Thread nD τ) scr fullShare (accAfter V c (n - 1)) ∗ others c)

theorem inv_open (c : Dev nD) :
    (Pipeline.ΦA spec1 c : sProp 𝕄) ⊢ iprop((∃ d, owns (c : Thread nD τ) scr fullShare d) ∗ others c) := by
  unfold Pipeline.ΦA others; rw [scopedRest1_eq]; simp only [scr, owns_whole]
  iintro ⟨⟨B1, B2, B3, B4, B5, B6, B7, B8, B9, HS⟩, Hg⟩
  isplitl [HS]; · iexact HS
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact Hg

theorem inv_close (c : Dev nD) :
    iprop((∃ d, owns (c : Thread nD τ) scr fullShare d) ∗ others c) ⊢ (Pipeline.ΦA spec1 c : sProp 𝕄) := by
  unfold Pipeline.ΦA others; rw [scopedRest1_eq]; simp only [scr, owns_whole]
  iintro ⟨HS, B1, B2, B3, B4, B5, B6, B7, B8, B9, Hg⟩
  isplitr [Hg]
  swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact HS

/-! ## The proof data -/

/-- The arrays as the region finds them; after the body each input's buffer still at its block and, where the
    output is stored, its buffer at the accumulator's contents; the invariant above; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => accAfter V c t.val
  Φ t := inv V c t.val
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = accAfter V c t.val := by dsimp only [dat]

/-- Both inputs are refetched at every point: their current staging buffers hold their blocks. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem hin (c : Dev nD) : (Pipeline.ΦA spec1 c : sProp 𝕄) ⊢ (dat V c).Φ 0 := by
  rw [show (dat V c).Φ 0 = inv V c 0 from rfl, show inv V c 0 = Pipeline.ΦA spec1 c from if_pos rfl]
  try exact Idealize.SL.BI.Entails.refl _

theorem hout (c : Dev nD) : (dat V c).Φ (Fin.last cfg1.N) ⊢ (Pipeline.ΦA spec1 c : sProp 𝕄) := by
  rw [show (dat V c).Φ (Fin.last cfg1.N) = inv V c (Fin.last cfg1.N).val from rfl, Fin.val_last,
    show cfg1.N = 128 from N_1, show inv V c 128 = Pipeline.ΦA spec1 c from if_pos (by decide)]
  try exact Idealize.SL.BI.Entails.refl _

/-! ## The body obligation at every grid point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- At any point the inputs' buffers hold their blocks; the point's number modulo 8 says which kind it is. A run's
    first point takes the accumulator at anything out of the plain invariant; a later point takes it at what the
    point before left; each leaves it at this point's sum, and the run's last point folds it back into the plain
    invariant after copying it to the output's buffer. Elsewhere the output's buffer goes back as it came. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).leavesExact 0 t = owns (c : Thread nD τ) (st1_0 t) fullShare ((dat V c).after 0 t) from rfl, after_0]
  rw [show (dat V c).leavesExact 1 t = owns (c : Thread nD τ) (st1_1 t) fullShare ((dat V c).after 1 t) from rfl, after_1]
  rw [show (dat V c).Φ t.castSucc = inv V c t.val from rfl, show (dat V c).Φ t.succ = inv V c (t.val + 1) from rfl]
  have hN : t.val < 128 := lt_of_lt_of_eq t.isLt (show cfg1.N = 128 from N_1)
  by_cases h0 : t.val % 8 = 0
  · have hF : atFirst (grid1.coords t) := (atFirst_iff t).mpr h0
    have hL : ¬atLast (grid1.coords t) := fun h => by have := (atLast_iff t).mp h; omega
    rw [Dat.leavesExact_idle (dat V c) 2 t (idle_out t hL) (keep_out t hL)]
    rw [show inv V c t.val = Pipeline.ΦA spec1 c from if_pos h0,
      show inv V c (t.val + 1) = iprop(owns (c : Thread nD τ) scr fullShare (accAfter V c t.val) ∗ others c) from
        if_neg (by omega)]
    rw [accAfter_first V c t h0]
    have hopen := inv_open (F := F) c
    iintro ⟨HP, Ho, ⟨%d0, H0⟩, ⟨%d1, H1⟩, ⟨%d2, H2⟩⟩
    ihave HQ := hopen $$ HP
    icases HQ with ⟨HS, HR⟩
    iapply (run_first c Set.univ _ _ _ _ _ _ _ _ _ hF hL (blk V c 0 t) (blk V c 1 t) _ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexists _; iexact H2
  · have hF : ¬atFirst (grid1.coords t) := fun h => h0 ((atFirst_iff t).mp h)
    by_cases h7 : t.val % 8 = 7
    · have hL : atLast (grid1.coords t) := (atLast_iff t).mpr h7
      rw [show (dat V c).leavesExact 2 t = owns (c : Thread nD τ) (st1_2 t) fullShare ((dat V c).after 2 t) from by
        unfold Dat.leavesExact; rw [live_out t hL], after_2]
      rw [show inv V c t.val = iprop(owns (c : Thread nD τ) scr fullShare (accAfter V c (t.val - 1)) ∗ others c) from if_neg h0,
        show inv V c (t.val + 1) = Pipeline.ΦA spec1 c from if_pos (by omega)]
      rw [accAfter_next V c t h0]
      iintro ⟨⟨HS, HR⟩, Ho, ⟨%d0, H0⟩, ⟨%d1, H1⟩, ⟨%d2, H2⟩⟩
      iapply (run_last c Set.univ _ _ _ _ _ _ _ _ _ hF hL (blk V c 0 t) (blk V c 1 t) (accAfter V c (t.val - 1)) _)
      isplitl [H0]; · iexact H0
      isplitl [H1]; · iexact H1
      isplitl [H2]; · iexists _; iexact H2
      isplitl [HS]; · iexact HS
      iintro ⟨H0, H1, H2, HS⟩
      isplitl [HS HR]
      · iapply (inv_close c)
        isplitl [HS]; · iexists _; iexact HS
        iexact HR
      isplitl [Ho]; · iexact Ho
      isplitl [H0]; · iexact H0
      isplitl [H1]; · iexact H1
      iexact H2
    · have hL : ¬atLast (grid1.coords t) := fun h => h7 ((atLast_iff t).mp h)
      rw [Dat.leavesExact_idle (dat V c) 2 t (idle_out t hL) (keep_out t hL)]
      rw [show inv V c t.val = iprop(owns (c : Thread nD τ) scr fullShare (accAfter V c (t.val - 1)) ∗ others c) from if_neg h0,
        show inv V c (t.val + 1) = iprop(owns (c : Thread nD τ) scr fullShare (accAfter V c t.val) ∗ others c) from
          if_neg (by omega)]
      rw [accAfter_next V c t h0]
      iintro ⟨⟨HS, HR⟩, Ho, ⟨%d0, H0⟩, ⟨%d1, H1⟩, ⟨%d2, H2⟩⟩
      iapply (run_mid c Set.univ _ _ _ _ _ _ _ _ _ hF hL (blk V c 0 t) (blk V c 1 t) _ (accAfter V c (t.val - 1)) _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The body obligation of the second pallas_call, at every point. -/
theorem body_obligation (c : Dev nD) : BodyObligation (dat (F := F) V c) (defs₀ (F := F)) Variants.none () Set.univ := fun t => by
  rw [bigSep_W1, bigSep_W1]
  exact body_at V c t

end Cert.KernelIdeal.Acc

end
-- ==== Proof.IdealWhole.lean ====
/-
  The idealized kernel's whole program: three host operations (the rank mask turned into floats, multiplied into
  the scales, reshaped to a row), then the two pallas_calls. The buffers' contents are followed through the three
  segments: as launched; after the host operations; after the first call, which changes only the effective-weight
  array; after the second, which changes only the result array. Each call is entered from "every unscoped buffer
  at the contents before it" and left at the contents after it, its body obligation the one proved for it. Every
  weakly fair execution therefore terminates with every unscoped buffer at the last contents — the arguments as
  launched, the result at what the second call's write-backs leave.
-/
import proofs.«128594_j20289425506440_2_alg».proof.Proof.IdealWeff
import proofs.«128594_j20289425506440_2_alg».proof.Proof.IdealAcc
import Idealize.ShloMosaic.Lib.Pipeline.Frame
import Idealize.ShloMosaic.Lib.Pipeline.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- As launched. -/
abbrev W0 : Dev nD → Valuation τ sig (Elt F) := fun c b => (s₀ m ρ).mem ((c : Dev nD), b)
/-- After the host operations: where the first call is entered. -/
abbrev W1 : Dev nD → Valuation τ sig (Elt F) := fun c => StableHlo.after hostOps0 (W0 m ρ c)
abbrev Va : (c : Dev nD) → (b : Ref sig .tc) → Buf (Elt F) ((c : Thread nD τ).loc b) := fun c b => W1 m ρ c b
/-- After the first call: its arrays at what its write-backs leave, every other buffer as entered. -/
def W2 (c : Dev nD) : Valuation τ sig (Elt F) :=
  Pipeline.withArrays spec0 c (W1 m ρ c) fun w => (Weff.dat (Va m ρ) c).arrAt w cfg0.N
theorem W2_arr (c : Dev nD) (w : Fin cfg0.W) :
    W2 m ρ c (Proc.devRef .tc (Pipeline.arrRef spec0 w)) = (Weff.dat (Va m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vb : (c : Dev nD) → (b : Ref sig .tc) → Buf (Elt F) ((c : Thread nD τ).loc b) := fun c b => W2 m ρ c b
theorem exit0_arr (c : Dev nD) (w : Fin cfg0.W) : (Weff.dat (Va m ρ) c).arrAt w cfg0.N = Vb m ρ c (Pipeline.arrRef spec0 w) :=
  (W2_arr m ρ c w).symm
theorem exit0_rest (c : Dev nD) : ∀ b, b ∉ Finset.univ.image (Pipeline.arrRef spec0) → Vb m ρ c b = Va m ρ c b :=
  fun b hb => W2_of_ne m ρ c b fun w e => hb (Finset.mem_image.mpr ⟨w, Finset.mem_univ _, e⟩)
/-- After the second call. -/
def W3 (c : Dev nD) : Valuation τ sig (Elt F) :=
  Pipeline.withArrays spec1 c (W2 m ρ c) fun w => (Acc.dat (Vb m ρ) c).arrAt w cfg1.N
theorem W3_arr (c : Dev nD) (w : Fin cfg1.W) :
    W3 m ρ c (Proc.devRef .tc (Pipeline.arrRef spec1 w)) = (Acc.dat (Vb m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vc : (c : Dev nD) → (b : Ref sig .tc) → Buf (Elt F) ((c : Thread nD τ).loc b) := fun c b => W3 m ρ c b
theorem exit1_arr (c : Dev nD) (w : Fin cfg1.W) : (Acc.dat (Vb m ρ) c).arrAt w cfg1.N = Vc m ρ c (Pipeline.arrRef spec1 w) :=
  (W3_arr m ρ c w).symm
theorem exit1_rest (c : Dev nD) : ∀ b, b ∉ Finset.univ.image (Pipeline.arrRef spec1) → Vc m ρ c b = Vb m ρ c b :=
  fun b hb => W3_of_ne m ρ c b fun w e => hb (Finset.mem_image.mpr ⟨w, Finset.mem_univ _, e⟩)

/-! ## No segment writes an argument: a call reads it through an input window or passes it by -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((Acc.dat (Vb m ρ) c).arrAt_in 0 rfl _).trans (Acc.A_eq (Vb m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((Weff.dat (Va m ρ) c).arrAt_in 0 rfl _).trans (Weff.A_eq (Va m ρ) c 0))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((Weff.dat (Va m ρ) c).arrAt_in 1 rfl _).trans (Weff.A_eq (Va m ρ) c 1))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 2).trans (((Weff.dat (Va m ρ) c).arrAt_in 2 rfl _).trans (Weff.A_eq (Va m ρ) c 2))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg5) := rfl

/-! ## The proof data of both calls, and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Weff.dat (Va m ρ) c
  | ⟨1, _⟩ => fun c => Acc.dat (Vb m ρ) c
abbrev 𝒱₀ : Variants := Variants.none
abbrev L : GSem nD τ sig → Finset Unit := fun _ => ∅
abbrev lv : GSem nD τ sig → Unit → ℕ := fun _ _ => 0
/-- The core's generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as a segment over the unscoped buffers. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-! ## The two calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Weff.body_obligation (Va m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Acc.body_obligation (Vb m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Acc.hin (Vb m ρ) c)
    unfold Pipeline.ΦA
    iintro ⟨Hp, -, Hr⟩
    isplitl [Hr]; · iexact Hr
    iexact Hp
  hout c := by
    rw [Pipeline.ownSems0_none]
    refine BIBase.Entails.trans (Acc.hout (Vb m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hostSeg m ρ), .region (reg0 m ρ), .region (reg1 m ρ) ]

theorem main_run (c : Dev nD) : main (F := F) c = Pipeline.Seg.run (segs m ρ) := (main_chain c).trans (by chain_rfl)

set_option backward.isDefEq.respectTransparency.types false in
/-- Every weakly fair execution terminates, nothing faulting, with every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W3 m ρ c) ∗ ∃ r, prngReg c r))
    (hch := ⟨fun _ => .rfl, fun _ => .rfl, fun _ => .rfl, fun c => by
      show iprop(StableHlo.held (c : Thread nD τ) (Pipeline.ucRefs τ sig) (W3 m ρ c) ∗ R c)
        ⊢ iprop((StableHlo.held (c : Thread nD τ) (Pipeline.ucRefs τ sig) (W3 m ρ c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim's post at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The same run naming the result: the result array ends at what the second call's write-backs leave. -/
theorem run_result : θ_run defs (onTc (τ := τ) (main (F := F))) ⟨m, fun _ => 0, ρ⟩ (fun r => ∀ c : Dev nD,
      r.2.mem ((c.tc : Thread nD τ).loc main_v4) = (Acc.dat (Vb m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.Whole

end
-- ==== Proof.PayWeff.lean ====
/-
  The first kernel body's stored value, read index by index at the ideal values.

  At the ideal values a float is an extended real, a format change is the identity and a matmul into the zero
  accumulator is the plain sum over the contracted axis. The body computes one block of the effective weight:
    out[p, q] = w[p, q] + two * sum over r of (pm[p, r] * al[0, r]) * qm[r, q],
  where `two` is the reading of the word 0x40000000 (never evaluated).
-/
import proofs.«128594_j20289425506440_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Cert.KernelIdeal Cert.KernelIdeal.Gen Idealize.ShloMosaic Idealize.ShloMosaic.ValueIdx Idealize.SL.Sem

/-! ## The [1024,64] x [64,1024] contraction: operand indices at an output index -/

/-- The left operand's row is the output's row (axis 0 is the left operand's free axis). -/
theorem weff_lhs_0 (i : S1024x1024.Idx) (k : dot_S1024x64_S64x1024_S1024x1024_1_0_0_1_n_n.contr.Idx) :
    (dot_S1024x64_S64x1024_S1024x1024_1_0_0_1_n_n.lhsIdx i k 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl

/-- The left operand's column is the contraction coordinate (axis 1 is its one contracted axis). -/
theorem weff_lhs_1 (i : S1024x1024.Idx) (k : dot_S1024x64_S64x1024_S1024x1024_1_0_0_1_n_n.contr.Idx) :
    (dot_S1024x64_S64x1024_S1024x1024_1_0_0_1_n_n.lhsIdx i k 1).val = (k ⟨0, by decide⟩).val :=
  dot_S1024x64_S64x1024_S1024x1024_1_0_0_1_n_n.lhsIdx_val_of_single rfl i k

/-- The right operand's row is the contraction coordinate (axis 0 is its one contracted axis). -/
theorem weff_rhs_0 (i : S1024x1024.Idx) (k : dot_S1024x64_S64x1024_S1024x1024_1_0_0_1_n_n.contr.Idx) :
    (dot_S1024x64_S64x1024_S1024x1024_1_0_0_1_n_n.rhsIdx i k 0).val = (k ⟨0, by decide⟩).val :=
  dot_S1024x64_S64x1024_S1024x1024_1_0_0_1_n_n.rhsIdx_val_of_single rfl i k

/-- The right operand's column is the output's column (axis 1 is the right operand's free axis). -/
theorem weff_rhs_1 (i : S1024x1024.Idx) (k : dot_S1024x64_S64x1024_S1024x1024_1_0_0_1_n_n.contr.Idx) :
    (dot_S1024x64_S64x1024_S1024x1024_1_0_0_1_n_n.rhsIdx i k 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The matmul into the zero accumulator at `(p, q)`: the sum over the 64 contracted coordinates of
    left `(p, r)` times right `(r, q)` (the contraction index re-indexed through its one coordinate). -/
theorem weff_matmul_apply (a : FVec Ideal S1024x64 .bf16) (b : FVec Ideal S64x1024 .bf16) (p q : Fin 1024) :
    FloatOps.matmul dot_S1024x64_S64x1024_S1024x1024_1_0_0_1_n_n none a b (constant S1024x1024 .f32 0x00000000#32) (ix2 p q)
      = ∑ r : Fin 64, a (ix2 p r) * b (ix2 r q) := by
  rw [Ideal.matmul_constant_zero_apply, ← Equiv.sum_comp (contrEquiv1 dot_S1024x64_S64x1024_S1024x1024_1_0_0_1_n_n 64 rfl rfl).symm]
  refine Finset.sum_congr rfl fun r _ => ?_
  have hr := contrEquiv1_symm_val dot_S1024x64_S64x1024_S1024x1024_1_0_0_1_n_n 64 rfl rfl r
  have el : dot_S1024x64_S64x1024_S1024x1024_1_0_0_1_n_n.lhsIdx (ix2 p q) ((contrEquiv1 dot_S1024x64_S64x1024_S1024x1024_1_0_0_1_n_n 64 rfl rfl).symm r) = ix2 p r := funext fun ax => Fin.ext (by
    match ax with
    | ⟨0, _⟩ => exact weff_lhs_0 _ _
    | ⟨1, _⟩ => exact (weff_lhs_1 _ _).trans hr)
  have er : dot_S1024x64_S64x1024_S1024x1024_1_0_0_1_n_n.rhsIdx (ix2 p q) ((contrEquiv1 dot_S1024x64_S64x1024_S1024x1024_1_0_0_1_n_n 64 rfl rfl).symm r) = ix2 r q := funext fun ax => Fin.ext (by
    match ax with
    | ⟨0, _⟩ => exact (weff_rhs_0 _ _).trans hr
    | ⟨1, _⟩ => exact weff_rhs_1 _ _)
  rw [el, er]

/-! ## The stored block at an index -/

/-- The first body's stored value at `(p, q)`: the weight block there plus `two` times the sum over the 64 rank
    coordinates of (left factor at `(p, r)` times the scale row at `(0, r)`) times the right factor at `(r, q)`.
    The same-shape cast is the identity, the row broadcast reads row 0, the format changes are the identity, the
    products and the sum are pointwise, the matmul is `weff_matmul_apply`. -/
theorem k0_pay1_apply (v0 : Vec Ideal S1x64 .f32) (v2 : Vec Ideal S1024x64 .f32) (v6 : Vec Ideal S64x1024 .f32)
    (v9 : Vec Ideal S1024x1024 .f32) (p q : Fin 1024) :
    k0_pay1 (F := Ideal) v0 v2 v6 v9 (ix2 p q)
      = v9 (ix2 p q) + Ideal.ofBits .f32 0x40000000#32 * ∑ r : Fin 64, (v2 (ix2 p r) * v0 (ix2 0 r)) * v6 (ix2 r q) := by
  unfold k0_pay1
  rw [truncf_apply, addf_apply, mulf_apply, broadcast_apply]
  simp only [matmul]
  rw [weff_matmul_apply, Ideal.ofBits_def]
  refine congrArg (fun s => v9 (ix2 p q) + Ideal.ofBits .f32 0x40000000#32 * s) (Finset.sum_congr rfl fun r _ => ?_)
  rw [truncf_apply, truncf_apply, mulf_apply, broadcastTo_1b_ab_apply, shapeCast_self]

end Cert.Bridge

end
-- ==== Proof.WeffValue.lean ====
/-
  The first pallas_call's output array after the run, as ONE function of the arrays the region reads.

  On the 4 × 4 grid the point with block index (J, K) reads the block (J, K) of the dense weight, rows J of the
  left factor, columns K of the right factor and the one row of scales, and writes back the block (J, K) of the
  output. A block's coordinate in its array is ALWAYS block index × block size + the coordinate inside the block.
  So what a point writes back is its block of the whole-array function
    G[n, k] = w[n, k] + two * sum over r of (pm[n, r] * al[0, r]) * qm[r, k]
  (`two` the reading of the word 0x40000000, never evaluated), and since the sixteen blocks cover the array, the
  array ends holding G.
-/
import proofs.«128594_j20289425506440_2_alg».proof.Proof.IdealWeff
import proofs.«128594_j20289425506440_2_alg».proof.Proof.PayWeff
import Idealize.ShloMosaic.Lib.Pipeline.Value
import Idealize.ShloMosaic.Lib.ValueIdx

set_option maxRecDepth 16384

noncomputable section

open scoped BigOperators

namespace Cert.Bridge

open Cert.KernelIdeal Cert.KernelIdeal.Gen Cert.KernelIdeal.Weff
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## The index maps, decided once over the grid -/

/-- At every point: the dense weight's block index is the output's on both axes; the left factor's is the
    output's on the rows and 0 on the columns; the right factor's is 0 on the rows and the output's on the columns;
    the scales' is (0, 0); and the output's block indices are at most 3. -/
theorem weff_idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = 0
    ∧ win0_4.index t (0 : Fin 2) ≤ 3 ∧ win0_4.index t (1 : Fin 2) ≤ 3 :=
  (by decide +kernel : ∀ t : Fin grid0.N, _)

/-- Every one of the 4 × 4 output blocks is SOME point's. -/
theorem weff_idx_onto : ∀ (q0 q1 : Fin 4), ∃ t : Fin cfg0.N, win0_4.index t = ![q0.val, q1.val] :=
  (by decide +kernel : ∀ (q0 q1 : Fin 4), ∃ t : Fin grid0.N, win0_4.index t = ![q0.val, q1.val])

/-! ## The whole-array function -/

/-- The four arrays the region reads, as the region finds them, at their literal function types: the dense weight,
    the left factor, the right factor, the one row of scales. -/
abbrev arrW (c : Dev nD) : S4096x4096.Idx → EReal := V c main_arg1
abbrev arrP (c : Dev nD) : S4096x64.Idx → EReal := V c main_arg2
abbrev arrQ (c : Dev nD) : S64x4096.Idx → EReal := V c main_arg4
abbrev arrL (c : Dev nD) : S1x64.Idx → EReal := V c main_v2

/-- The effective weight: at `(n, k)` the dense weight there plus `two` times the sum over the 64 rank coordinates
    of (left factor at `(n, r)` times scale at `(0, r)`) times right factor at `(r, k)`. -/
def weffG (c : Dev nD) : S4096x4096.Idx → EReal := fun j =>
  arrW V c j + Ideal.ofBits .f32 0x40000000#32 * ∑ r : Fin 64,
    (arrP V c (ix2 (j 0 : Fin 4096) r) * arrL V c (ix2 (0 : Fin 1) r)) * arrQ V c (ix2 r (j 1 : Fin 4096))

/-- The effective weight at coordinates. -/
theorem weffG_apply (c : Dev nD) (n k : Fin 4096) :
    weffG V c (ix2 n k) = arrW V c (ix2 n k) + Ideal.ofBits .f32 0x40000000#32 * ∑ r : Fin 64,
      (arrP V c (ix2 n r) * arrL V c (ix2 (0 : Fin 1) r)) * arrQ V c (ix2 r k) := rfl

/-! ## Each input block read where the output's block index says -/

/-- The dense weight's block at `(p, q)` is the array at (output row block × 1024 + p, output column block × 1024 + q). -/
theorem blk0_apply (c : Dev nD) (t : Fin cfg0.N) (p q : Fin 1024) (k : S4096x4096.Idx)
    (h0 : (k 0).val = win0_4.index t (0 : Fin 2) * 1024 + p.val) (h1 : (k 1).val = win0_4.index t (1 : Fin 2) * 1024 + q.val) :
    blk V c 0 t (ix2 p q) = arrW V c k := by
  obtain ⟨e00, e01, -⟩ := weff_idx_facts t
  unfold blk
  rw [View.read_apply]
  show arrW V c _ = arrW V c k
  congr 1
  funext a; apply Fin.ext
  match a with
  | ⟨0, _⟩ => show win0_0.index t (0 : Fin 2) * 1024 + 1 * p.val = (k 0).val; rw [h0, e00]; omega
  | ⟨1, _⟩ => show win0_0.index t (1 : Fin 2) * 1024 + 1 * q.val = (k 1).val; rw [h1, e01]; omega

/-- The left factor's block at `(p, r)` is the array at (output row block × 1024 + p, r). -/
theorem blk1_apply (c : Dev nD) (t : Fin cfg0.N) (p : Fin 1024) (r : Fin 64) (k : S4096x64.Idx)
    (h0 : (k 0).val = win0_4.index t (0 : Fin 2) * 1024 + p.val) (h1 : (k 1).val = r.val) :
    blk V c 1 t (ix2 p r) = arrP V c k := by
  obtain ⟨-, -, e10, e11, -⟩ := weff_idx_facts t
  unfold blk
  rw [View.read_apply]
  show arrP V c _ = arrP V c k
  congr 1
  funext a; apply Fin.ext
  match a with
  | ⟨0, _⟩ => show win0_1.index t (0 : Fin 2) * 1024 + 1 * p.val = (k 0).val; rw [h0, e10]; omega
  | ⟨1, _⟩ => show win0_1.index t (1 : Fin 2) * 64 + 1 * r.val = (k 1).val; rw [h1, e11]; omega

/-- The right factor's block at `(r, q)` is the array at (r, output column block × 1024 + q). -/
theorem blk2_apply (c : Dev nD) (t : Fin cfg0.N) (r : Fin 64) (q : Fin 1024) (k : S64x4096.Idx)
    (h0 : (k 0).val = r.val) (h1 : (k 1).val = win0_4.index t (1 : Fin 2) * 1024 + q.val) :
    blk V c 2 t (ix2 r q) = arrQ V c k := by
  obtain ⟨-, -, -, -, e20, e21, -⟩ := weff_idx_facts t
  unfold blk
  rw [View.read_apply]
  show arrQ V c _ = arrQ V c k
  congr 1
  funext a; apply Fin.ext
  match a with
  | ⟨0, _⟩ => show win0_2.index t (0 : Fin 2) * 64 + 1 * r.val = (k 0).val; rw [h0, e20]; omega
  | ⟨1, _⟩ => show win0_2.index t (1 : Fin 2) * 1024 + 1 * q.val = (k 1).val; rw [h1, e21]; omega

/-- The scales' one block is the whole one-row array. -/
theorem blk3_apply (c : Dev nD) (t : Fin cfg0.N) (r : Fin 64) :
    blk V c 3 t (ix2 (0 : Fin 1) r) = arrL V c (ix2 (0 : Fin 1) r) := by
  obtain ⟨-, -, -, -, -, -, e30, e31, -⟩ := weff_idx_facts t
  unfold blk
  rw [View.read_apply]
  show arrL V c _ = arrL V c (ix2 (0 : Fin 1) r)
  congr 1
  funext a; apply Fin.ext
  match a with
  | ⟨0, _⟩ => show win0_3.index t (0 : Fin 2) * 1 + 1 * 0 = 0; rw [e30]
  | ⟨1, _⟩ => show win0_3.index t (1 : Fin 2) * 64 + 1 * r.val = r.val; rw [e31]; omega

/-- The output block's element `(p, q)` sits in the array at row (row block × 1024 + p) … -/
theorem out_emb_0 (t : Fin cfg0.N) (p q : Fin 1024) :
    (((((cfg0.win 4).blk t).view.emb (ix2 p q) : S4096x4096.Idx)) 0).val = win0_4.index t (0 : Fin 2) * 1024 + p.val := by
  show win0_4.index t (0 : Fin 2) * 1024 + 1 * p.val = _; omega

/-- … and column (column block × 1024 + q). -/
theorem out_emb_1 (t : Fin cfg0.N) (p q : Fin 1024) :
    (((((cfg0.win 4).blk t).view.emb (ix2 p q) : S4096x4096.Idx)) 1).val = win0_4.index t (1 : Fin 2) * 1024 + q.val := by
  show win0_4.index t (1 : Fin 2) * 1024 + 1 * q.val = _; omega

/-! ## What a point writes back -/

/-- WHAT POINT `t` WRITES BACK is block `t` of the effective weight of the arrays as the region finds them: the
    stored block at `(p, q)` is the payload's arithmetic of the four loaded blocks, and each loaded block reads its
    array where the output's block index says. -/
theorem weff_flushed_eq (c : Dev nD) (t : Fin cfg0.N) :
    (dat (F := Ideal) V c).flushed 4 t = ((cfg0.win 4).blk t).view.read (Elt Ideal) (weffG V c) := by
  show (cfg0.win 4).cut (grid0.coords t) ((dat V c).after 4 t) = _
  rw [after_4]
  funext y
  obtain ⟨p, q, rfl⟩ : ∃ (p q : Fin 1024), y = ix2 p q := ⟨y 0, y 1, eq_ix2 y⟩
  show stored V c t (ix2 p q) = weffG V c (((cfg0.win 4).blk t).view.emb (ix2 p q))
  unfold stored
  refine (k0_pay1_apply (blk V c 3 t) (blk V c 1 t) (blk V c 2 t) (blk V c 0 t) p q).trans ?_
  have hi0 := out_emb_0 t p q
  have hi1 := out_emb_1 t p q
  unfold weffG
  rw [blk0_apply V c t p q _ hi0 hi1]
  refine congrArg (fun s => _ + Ideal.ofBits .f32 0x40000000#32 * s) (Finset.sum_congr rfl fun r _ => ?_)
  rw [blk1_apply V c t p r (ix2 _ r) hi0 rfl, blk3_apply, blk2_apply V c t r q (ix2 r _) rfl hi1]

/-! ## The blocks cover the array -/

/-- An index of the array is in point `t`'s block iff each coordinate is in the block's range on its axis. -/
theorem weff_mem_blk (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- Every index is in the block of the point whose block index is (row / 1024, column / 1024), and every point
    writes its block back. -/
theorem weff_cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := weff_idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [weff_mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-! ## The array after the run -/

/-- THE OUTPUT ARRAY after the run is the effective weight of the arrays as the region finds them. -/
theorem weff_final (c : Dev nD) : (dat (F := Ideal) V c).arrAt 4 cfg0.N = weffG V c :=
  (dat V c).arrAt_eq_of_cover 4 (weffG V c) (fun t _ => weff_flushed_eq V c t) weff_cover

end Cert.Bridge

end
-- ==== Proof.PayAcc.lean ====
/-
  The second kernel body's stored values, read index by index at the ideal values.

  The body accumulates x * W^T over blocks of 512 contracted coordinates. On the first block it stores the zero
  splat; on every block it stores
    new[p, q] = acc[p, q] + sum over kk of x[p, kk] * wb[q, kk],
  the matmul contracting axis 1 of BOTH operands (the right operand is read transposed). At the ideal values the
  format change is the identity, same-shape casts are the identity, and the matmul into the zero accumulator is the
  plain sum.
-/
import proofs.«128594_j20289425506440_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Cert.KernelIdeal Cert.KernelIdeal.Gen Idealize.ShloMosaic Idealize.ShloMosaic.ValueIdx Idealize.SL.Sem

/-! ## The first block's store: the zero splat -/

/-- The value stored on the first block is `0` everywhere: the word 0x00000000 reads as the extended real `0`, a
    broadcast scalar reads its value at every index, and the same-shape cast is the identity. -/
theorem k1_pay1_apply (p : Fin 1024) (q : Fin 2048) : k1_pay1 (F := Ideal) (ix2 p q) = 0 := by
  unfold k1_pay1
  rw [shapeCast_self, broadcast_apply]
  exact Ideal.ofBits_zero_f32

/-! ## The [1024,512] x [2048,512] contraction: operand indices at an output index -/

/-- The left operand's row is the output's row (axis 0 is the left operand's free axis). -/
theorem acc_lhs_0 (i : S1024x2048.Idx) (k : dot_S1024x512_S2048x512_S1024x2048_1_1_0_0_n_n.contr.Idx) :
    (dot_S1024x512_S2048x512_S1024x2048_1_1_0_0_n_n.lhsIdx i k 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl

/-- The left operand's column is the contraction coordinate (axis 1 is its one contracted axis). -/
theorem acc_lhs_1 (i : S1024x2048.Idx) (k : dot_S1024x512_S2048x512_S1024x2048_1_1_0_0_n_n.contr.Idx) :
    (dot_S1024x512_S2048x512_S1024x2048_1_1_0_0_n_n.lhsIdx i k 1).val = (k ⟨0, by decide⟩).val :=
  dot_S1024x512_S2048x512_S1024x2048_1_1_0_0_n_n.lhsIdx_val_of_single rfl i k

/-- The right operand's row is the output's COLUMN (axis 0 is the right operand's free axis, placed after the
    left operand's one free axis among the output's axes). -/
theorem acc_rhs_0 (i : S1024x2048.Idx) (k : dot_S1024x512_S2048x512_S1024x2048_1_1_0_0_n_n.contr.Idx) :
    (dot_S1024x512_S2048x512_S1024x2048_1_1_0_0_n_n.rhsIdx i k 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl

/-- The right operand's column is the contraction coordinate (axis 1 is its one contracted axis). -/
theorem acc_rhs_1 (i : S1024x2048.Idx) (k : dot_S1024x512_S2048x512_S1024x2048_1_1_0_0_n_n.contr.Idx) :
    (dot_S1024x512_S2048x512_S1024x2048_1_1_0_0_n_n.rhsIdx i k 1).val = (k ⟨0, by decide⟩).val :=
  dot_S1024x512_S2048x512_S1024x2048_1_1_0_0_n_n.rhsIdx_val_of_single rfl i k

/-- The matmul into the zero accumulator at `(p, q)`: the sum over the 512 contracted coordinates of left
    `(p, kk)` times right `(q, kk)` (the contraction index re-indexed through its one coordinate). -/
theorem acc_matmul_apply (a : FVec Ideal S1024x512 .bf16) (b : FVec Ideal S2048x512 .bf16) (p : Fin 1024) (q : Fin 2048) :
    FloatOps.matmul dot_S1024x512_S2048x512_S1024x2048_1_1_0_0_n_n none a b (constant S1024x2048 .f32 0x00000000#32) (ix2 p q)
      = ∑ kk : Fin 512, a (ix2 p kk) * b (ix2 q kk) := by
  rw [Ideal.matmul_constant_zero_apply, ← Equiv.sum_comp (contrEquiv1 dot_S1024x512_S2048x512_S1024x2048_1_1_0_0_n_n 512 rfl rfl).symm]
  refine Finset.sum_congr rfl fun kk _ => ?_
  have hk := contrEquiv1_symm_val dot_S1024x512_S2048x512_S1024x2048_1_1_0_0_n_n 512 rfl rfl kk
  have el : dot_S1024x512_S2048x512_S1024x2048_1_1_0_0_n_n.lhsIdx (ix2 p q) ((contrEquiv1 dot_S1024x512_S2048x512_S1024x2048_1_1_0_0_n_n 512 rfl rfl).symm kk) = ix2 p kk := funext fun ax => Fin.ext (by
    match ax with
    | ⟨0, _⟩ => exact acc_lhs_0 _ _
    | ⟨1, _⟩ => exact (acc_lhs_1 _ _).trans hk)
  have er : dot_S1024x512_S2048x512_S1024x2048_1_1_0_0_n_n.rhsIdx (ix2 p q) ((contrEquiv1 dot_S1024x512_S2048x512_S1024x2048_1_1_0_0_n_n 512 rfl rfl).symm kk) = ix2 q kk := funext fun ax => Fin.ext (by
    match ax with
    | ⟨0, _⟩ => exact acc_rhs_0 _ _
    | ⟨1, _⟩ => exact (acc_rhs_1 _ _).trans hk)
  rw [el, er]

/-! ## Every block's store: the accumulator plus the block's partial product -/

/-- The value stored on every block at `(p, q)`: the accumulator there plus the sum over the block's 512
    contracted coordinates of the activation at `(p, kk)` times the weight block at `(q, kk)`. -/
theorem k1_pay2_apply (v3 : Vec Ideal S1024x512 .f32) (v5 : Vec Ideal S1024x2048 .f32) (v6 : Vec Ideal S2048x512 .bf16)
    (p : Fin 1024) (q : Fin 2048) :
    k1_pay2 (F := Ideal) v3 v5 v6 (ix2 p q) = v5 (ix2 p q) + ∑ kk : Fin 512, v3 (ix2 p kk) * v6 (ix2 q kk) := by
  unfold k1_pay2
  rw [shapeCast_self, addf_apply]
  simp only [matmul]
  rw [acc_matmul_apply]
  refine congrArg (fun s => v5 (ix2 p q) + s) (Finset.sum_congr rfl fun kk _ => ?_)
  rw [truncf_apply, shapeCast_self]

end Cert.Bridge

end
-- ==== Proof.SumBlocks.lean ====
/-
  Two facts about finite sums of extended reals, with no finiteness assumption (the extended reals are an
  additive commutative monoid).

  (1) A running sum that starts at `0` and adds `g j` at step `j` is, after `n` steps, the sum of `g` over the
      first `n` naturals; after 8 steps, the sum over `Fin 8`.
  (2) A sum over 4096 coordinates is the sum over 8 blocks of the sums over the 512 coordinates of each block,
      coordinate `k = j * 512 + kk` (quotient and remainder by 512).
-/
import Idealize.ShloMosaic.PureOps.Ideal

noncomputable section

open scoped BigOperators

namespace Cert.Bridge

/-! ## A running sum -/

/-- The running sum of `g`: `0` at the start, and each step adds the next term. -/
def runSum (g : ℕ → EReal) : ℕ → EReal
  | 0 => 0
  | j + 1 => runSum g j + g j

theorem runSum_zero (g : ℕ → EReal) : runSum g 0 = 0 := rfl

theorem runSum_succ (g : ℕ → EReal) (j : ℕ) : runSum g (j + 1) = runSum g j + g j := rfl

/-- After `n` steps the running sum is the sum over the first `n` naturals: by induction, one term per step. -/
theorem runSum_eq_sum_range (g : ℕ → EReal) (n : ℕ) : runSum g n = ∑ j ∈ Finset.range n, g j := by
  induction n with
  | zero => rw [runSum_zero, Finset.sum_range_zero]
  | succ n ih => rw [runSum_succ, ih, Finset.sum_range_succ]

/-- After `n` steps the running sum is the sum over `Fin n`. -/
theorem runSum_eq_sum_fin (g : ℕ → EReal) (n : ℕ) : runSum g n = ∑ j : Fin n, g j.val := by
  rw [runSum_eq_sum_range, Finset.sum_range]

/-- After 8 steps the running sum is the sum over the 8 steps. -/
theorem runSum_eight (g : ℕ → EReal) : runSum g 8 = ∑ j : Fin 8, g j.val :=
  runSum_eq_sum_fin g 8

/-! ## 4096 coordinates as 8 blocks of 512 -/

/-- A block number and a coordinate inside the block are one coordinate below 4096, `j * 512 + kk`; back by
    quotient and remainder. -/
def blockEquiv : Fin 8 × Fin 512 ≃ Fin 4096 where
  toFun p := ⟨p.1.val * 512 + p.2.val, by omega⟩
  invFun k := (⟨k.val / 512, by omega⟩, ⟨k.val % 512, by omega⟩)
  left_inv p := by
    obtain ⟨j, kk⟩ := p
    refine Prod.ext (Fin.ext ?_) (Fin.ext ?_)
    · show (j.val * 512 + kk.val) / 512 = j.val
      omega
    · show (j.val * 512 + kk.val) % 512 = kk.val
      omega
  right_inv k := Fin.ext (by
    show k.val / 512 * 512 + k.val % 512 = k.val
    omega)

/-- A sum over the 4096 coordinates is the sum over the 8 blocks of the sums inside each block: re-index through
    `blockEquiv`, then split the sum over the product. -/
theorem sum_blocks (f : Fin 4096 → EReal) :
    ∑ k : Fin 4096, f k = ∑ j : Fin 8, ∑ kk : Fin 512, f ⟨j.val * 512 + kk.val, by omega⟩ := by
  rw [← Equiv.sum_comp blockEquiv f, Fintype.sum_prod_type]
  rfl

end Cert.Bridge

end
-- ==== Proof.AccValue.lean ====
/-
  What the second pallas_call leaves in the result array, at the ideal instance. Each run of eight consecutive grid
  points (one output block (i, j), the K-blocks 0 … 7 in order) adds eight products onto zero, so at the run's last
  point the accumulator — and the output block written back there — holds, at row p and column r of the block, the
  sum over the eight K-blocks of the 512-term products of row (1024 i + p) of the activations with row (2048 j + r)
  of the effective weight. Regrouped, that is the one sum over all 4096 columns; the output blocks tile the result
  array, so the array ends holding, at (mm, n), the sum over k of x[mm, k] · W[n, k].
-/
import proofs.«128594_j20289425506440_2_alg».proof.Proof.IdealAcc
import proofs.«128594_j20289425506440_2_alg».proof.Proof.PayAcc
import proofs.«128594_j20289425506440_2_alg».proof.Proof.SumBlocks
import Idealize.ShloMosaic.Lib.ValueIdx
import Idealize.ShloMosaic.Lib.Pipeline.Value

set_option maxRecDepth 16384

noncomputable section

open scoped BigOperators

namespace Cert.Bridge

open Cert.KernelIdeal Cert.KernelIdeal.Gen Cert.KernelIdeal.Acc
open Idealize.ShloMosaic Idealize.ShloMosaic.TcCoe Idealize.ShloMosaic.ValueIdx Idealize.SL.Sem
open Idealize.ShloMosaic.Pipeline (Dat Cfg Window)

-- the TensorCore's buffer contents when the second call is entered
variable (V : (c : Dev nD) → (b : Ref sig .tc) → Buf (Elt Ideal) ((c : Thread nD τ).loc b))

/-! ## The accumulator as a running sum -/

/-- The activations' staged block at point `n`. -/
def xAt (c : Dev nD) (n : ℕ) : Vec Ideal S1024x512 .f32 := blk V c 0 (pt n)
/-- The effective weight's staged block at point `n`. -/
def wAt (c : Dev nD) (n : ℕ) : Vec Ideal S2048x512 .bf16 := blk V c 1 (pt n)

/-- Point `n`'s product at row `p`, column `r` of the output block: the 512-term product of the two staged blocks. -/
def term (c : Dev nD) (n : ℕ) (p : Fin 1024) (r : Fin 2048) : EReal :=
  ∑ kk : Fin 512, xAt V c n (ix2 p kk) * wAt V c n (ix2 r kk)

/-- One step of the accumulator's recursion, at any point number. -/
theorem accAfter_eq (c : Dev nD) (n : ℕ) :
    accAfter V c n = k1_pay2 (xAt V c n) (if n % 8 = 0 then k1_pay1 (F := Ideal) else accAfter V c (n - 1)) (wAt V c n) := by
  cases n with
  | zero => rfl
  | succ n => rfl

/-- Within the run that starts at point `s`, after its point number `j` the accumulator holds the first `j + 1` products
    added in order onto zero. -/
theorem acc_running (c : Dev nD) (s : ℕ) (hs : s % 8 = 0) (p : Fin 1024) (r : Fin 2048) :
    ∀ j : ℕ, j < 8 → (accAfter V c (s + j) : Vec Ideal S1024x2048 .f32) (ix2 p r) = runSum (fun jj => term V c (s + jj) p r) (j + 1) := by
  intro j
  induction j with
  | zero =>
    intro _
    rw [accAfter_eq, if_pos (by omega)]
    refine (k1_pay2_apply _ _ _ p r).trans ?_
    rw [k1_pay1_apply]
    rfl
  | succ j ih =>
    intro hj
    rw [show s + (j + 1) = (s + j) + 1 from rfl, accAfter_eq, if_neg (by omega)]
    refine (k1_pay2_apply _ _ _ p r).trans ?_
    rw [show s + j + 1 - 1 = s + j from rfl, ih (by omega)]
    rfl

/-! ## The grid point's blocks as places in the arrays -/

theorem point_lt (t : Fin cfg1.N) : t.val < 128 := lt_of_lt_of_eq t.isLt (show cfg1.N = 128 from N_1)

/-- The three windows' block indices at point `t`: the row block is `t / 16`, the column block `(t / 8) % 2`, the K-block
    `t % 8` (K innermost) — decided over the 128 points. -/
theorem index_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2 :=
  (by decide +kernel : ∀ t : Fin grid1.N, _)

/-- Entry (p, kk) of the activations' block at point `t` is entry (1024 · (t / 16) + p, 512 · (t % 8) + kk) of the array. -/
theorem xblk_apply (c : Dev nD) (t : Fin cfg1.N) (p : Fin 1024) (kk : Fin 512) (i : S8192x4096.Idx)
    (h0 : (i 0).val = t.val / 16 * 1024 + p.val) (h1 : (i 1).val = t.val % 8 * 512 + kk.val) :
    (blk V c 0 t : Vec Ideal S1024x512 .f32) (ix2 p kk) = (V c main_arg0 : S8192x4096.Idx → EReal) i := by
  obtain ⟨e0, e1, -⟩ := index_facts t
  unfold blk
  rw [View.read_apply]
  show V c main_arg0 _ = V c main_arg0 _
  congr 1
  funext a
  apply Fin.ext
  match a with
  | ⟨0, _⟩ => show win1_0.index t (0 : Fin 2) * 1024 + 1 * p.val = (i 0).val; rw [e0, h0]; omega
  | ⟨1, _⟩ => show win1_0.index t (1 : Fin 2) * 512 + 1 * kk.val = (i 1).val; rw [e1, h1]; omega

/-- Entry (r, kk) of the effective weight's block at point `t` is entry (2048 · ((t / 8) % 2) + r, 512 · (t % 8) + kk). -/
theorem wblk_apply (c : Dev nD) (t : Fin cfg1.N) (r : Fin 2048) (kk : Fin 512) (i : S4096x4096.Idx)
    (h0 : (i 0).val = t.val / 8 % 2 * 2048 + r.val) (h1 : (i 1).val = t.val % 8 * 512 + kk.val) :
    (blk V c 1 t : Vec Ideal S2048x512 .bf16) (ix2 r kk) = (V c main_v3 : S4096x4096.Idx → EReal) i := by
  obtain ⟨-, -, e2, e3, -⟩ := index_facts t
  unfold blk
  rw [View.read_apply]
  show V c main_v3 _ = V c main_v3 _
  congr 1
  funext a
  apply Fin.ext
  match a with
  | ⟨0, _⟩ => show win1_1.index t (0 : Fin 2) * 2048 + 1 * r.val = (i 0).val; rw [e2, h0]; omega
  | ⟨1, _⟩ => show win1_1.index t (1 : Fin 2) * 512 + 1 * kk.val = (i 1).val; rw [e3, h1]; omega

/-! ## The result array -/

/-- The product of the activations with the transposed effective weight, entry by entry. -/
def outSpec (X : S8192x4096.Idx → EReal) (Wm : S4096x4096.Idx → EReal) : S8192x4096.Idx → EReal :=
  fun i => ∑ k : Fin 4096, X (ix2 (⟨(i 0).val, idx2_lt0 i⟩ : Fin 8192) k) * Wm (ix2 (⟨(i 1).val, idx2_lt1 i⟩ : Fin 4096) k)

theorem outSpec_apply (X : S8192x4096.Idx → EReal) (Wm : S4096x4096.Idx → EReal) (mm : Fin 8192) (n : Fin 4096) :
    outSpec X Wm (ix2 mm n) = ∑ k : Fin 4096, X (ix2 mm k) * Wm (ix2 n k) := rfl

/-- WHAT A RUN'S LAST POINT WRITES BACK is its block of `outSpec`: the accumulator holds the eight products of the run
    added in order onto zero; each is the 512-term sum over its K-block, and the eight K-blocks are the 4096 columns. -/
theorem out_flushed (c : Dev nD) (t : Fin cfg1.N) (hf : (cfg1.win 2).flush t = true) :
    (dat V c).flushed 2 t = ((cfg1.win 2).blk t).view.read (Elt Ideal) (outSpec (V c main_arg0) (V c main_v3)) := by
  have h7 : t.val % 8 = 7 := (flush1_2 t).mp hf
  have hN := point_lt t
  obtain ⟨-, -, -, -, e4, e5⟩ := index_facts t
  show (cfg1.win 2).cut (grid1.coords t) ((dat V c).after 2 t) = _
  rw [after_2]
  funext y
  obtain ⟨p, r, rfl⟩ : ∃ (p : Fin 1024) (r : Fin 2048), y = ix2 p r := ⟨y 0, y 1, eq_ix2 y⟩
  rw [View.read_apply]
  show (accAfter V c t.val : Vec Ideal S1024x2048 .f32) (ix2 p r) = outSpec _ _ (((cfg1.win 2).blk t).view.emb (ix2 p r))
  have hE0 : ((((cfg1.win 2).blk t).view.emb (ix2 p r)) 0).val = win1_2.index t (0 : Fin 2) * 1024 + 1 * p.val := rfl
  have hE1 : ((((cfg1.win 2).blk t).view.emb (ix2 p r)) 1).val = win1_2.index t (1 : Fin 2) * 2048 + 1 * r.val := rfl
  rw [e4] at hE0; rw [e5] at hE1
  generalize ((cfg1.win 2).blk t).view.emb (ix2 p r) = z at hE0 hE1 ⊢
  have hs : t.val = (t.val - 7) + 7 := by omega
  rw [hs, acc_running V c (t.val - 7) (by omega) p r 7 (by decide), runSum_eight]
  unfold outSpec
  rw [sum_blocks]
  refine Finset.sum_congr rfl fun j _ => ?_
  have hj : j.val < 8 := j.isLt
  unfold term xAt wAt
  refine Finset.sum_congr rfl fun kk _ => ?_
  have hk : kk.val < 512 := kk.isLt
  have hp : (pt (t.val - 7 + j.val)).val = t.val - 7 + j.val := Nat.mod_eq_of_lt (by omega)
  rw [xblk_apply V c (pt (t.val - 7 + j.val)) p kk (ix2 (⟨(z 0).val, idx2_lt0 z⟩ : Fin 8192) (⟨j.val * 512 + kk.val, by omega⟩ : Fin 4096))
      (by show (z 0).val = _; rw [hp, hE0]; omega) (by show j.val * 512 + kk.val = _; rw [hp]; omega),
    wblk_apply V c (pt (t.val - 7 + j.val)) r kk (ix2 (⟨(z 1).val, idx2_lt1 z⟩ : Fin 4096) (⟨j.val * 512 + kk.val, by omega⟩ : Fin 4096))
      (by show (z 1).val = _; rw [hp, hE1]; omega) (by show j.val * 512 + kk.val = _; rw [hp]; omega)]

/-- An index of the result array is in point `t`'s output block iff each coordinate is in the block's range. -/
theorem out_mem (t : Fin cfg1.N) (i : S8192x4096.Idx) :
    i ∈ ((cfg1.win 2).blk t).view.set ↔ ∀ a : Fin 2, win1_2.index t a * S1024x2048.size a ≤ (i a).val
      ∧ (i a).val < win1_2.index t a * S1024x2048.size a + S1024x2048.size a := by
  show i ∈ ((View.whole main_v4).slice (win1_2.rect t)).set ↔ _
  rw [View.set_slice_whole, Rect.mem_set_unit]
  exact Iff.rfl

/-- The output blocks of the sixteen runs' last points tile the result array. -/
theorem out_cover (i : S8192x4096.Idx) :
    ∃ t : Fin cfg1.N, (cfg1.win 2).flush t = true ∧ i ∈ ((cfg1.win 2).blk t).view.set := by
  have hi0 : (i 0).val < 8192 := idx2_lt0 i
  have hi1 : (i 1).val < 4096 := idx2_lt1 i
  obtain ⟨n, hn⟩ : ∃ n : ℕ, n = (i 0).val / 1024 * 16 + (i 1).val / 2048 * 8 + 7 := ⟨_, rfl⟩
  have hn128 : n < 128 := by omega
  have hlt : n < cfg1.N := by rw [show cfg1.N = 128 from N_1]; exact hn128
  refine ⟨⟨n, hlt⟩, (flush1_2 ⟨n, hlt⟩).mpr (by show n % 8 = 7; omega), ?_⟩
  rw [out_mem]
  obtain ⟨-, -, -, -, e4, e5⟩ := index_facts ⟨n, hlt⟩
  intro a
  match a with
  | ⟨0, _⟩ =>
    show win1_2.index ⟨n, hlt⟩ (0 : Fin 2) * 1024 ≤ (i 0).val ∧ (i 0).val < win1_2.index ⟨n, hlt⟩ (0 : Fin 2) * 1024 + 1024
    rw [e4]; show n / 16 * 1024 ≤ (i 0).val ∧ (i 0).val < n / 16 * 1024 + 1024; omega
  | ⟨1, _⟩ =>
    show win1_2.index ⟨n, hlt⟩ (1 : Fin 2) * 2048 ≤ (i 1).val ∧ (i 1).val < win1_2.index ⟨n, hlt⟩ (1 : Fin 2) * 2048 + 2048
    rw [e5]; show n / 8 % 2 * 2048 ≤ (i 1).val ∧ (i 1).val < n / 8 % 2 * 2048 + 2048; omega

/-- The result array after the second call. -/
theorem acc_final (c : Dev nD) : (dat V c).arrAt 2 cfg1.N = outSpec (V c main_arg0) (V c main_v3) :=
  (dat V c).arrAt_eq_of_cover 2 (outSpec (V c main_arg0) (V c main_v3)) (fun t hf => out_flushed V c t hf) out_cover

end Cert.Bridge

end
-- ==== Proof.EntryValue.lean ====
/-
  What the first pallas_call is entered from, at the ideal values.

  Three host operations run before the first call: the one-bit rank mask is converted to floats, multiplied
  into the scales, and the product reshaped from [64] to the one row [1, 64]. So the row of active scales the
  first call reads is, at `(0, r)`, the scale at `r` times the mask at `r` read as a float; and the three arrays no
  host operation writes (the dense weight and the two low-rank factors) are still as launched.
-/
import proofs.«128594_j20289425506440_2_alg».proof.Proof.IdealWhole
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## The arrays no host operation writes -/

/-- The dense weight is as launched when the first call is entered: no host operation writes it. -/
theorem weight_entry (c : Dev nD) : Whole.Va (F := Ideal) m ρ c main_arg1 = m ((c : Thread nD τ).loc main_arg1) :=
  (StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl

/-- The left factor is as launched when the first call is entered. -/
theorem left_entry (c : Dev nD) : Whole.Va (F := Ideal) m ρ c main_arg2 = m ((c : Thread nD τ).loc main_arg2) :=
  (StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl

/-- The right factor is as launched when the first call is entered. -/
theorem right_entry (c : Dev nD) : Whole.Va (F := Ideal) m ρ c main_arg4 = m ((c : Thread nD τ).loc main_arg4) :=
  (StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl

/-! ## The row of active scales -/

/-- The launched scales and the launched one-bit mask, at their literal function types. -/
abbrev argScale (c : Dev nD) : S64.Idx → EReal := m ((c : Thread nD τ).loc main_arg3)
abbrev argMask (c : Dev nD) : S64.Idx → BitVec 1 := m ((c : Thread nD τ).loc main_arg5)

/-- The row the first call reads is the three host operations' term of the launched scales and mask: the
    product of the scales with the converted mask, reshaped to one row. -/
theorem scales_term (c : Dev nD) :
    (Whole.Va (F := Ideal) m ρ c main_v2 : S1x64.Idx → EReal)
      = shapeCast S1x64 (mulf (argScale m c) (uitofp (F := Ideal) .f32 (argMask m c))) shapeCasts_S64_S1x64 := by
  show StableHlo.after hostOps0 (Whole.W0 m ρ c) (Proc.devRef .tc main_v2) = _
  after_results
  rfl

/-- The row of active scales at `(0, r)`: the scale at `r` times the mask at `r` read as a float. The reshape
    [64] to [1, 64] reads the operand at the column's coordinate; the product and the conversion are pointwise. -/
theorem scales_entry (c : Dev nD) (r : Fin 64) :
    (Whole.Va (F := Ideal) m ρ c main_v2 : S1x64.Idx → EReal) (ix2 (0 : Fin 1) r)
      = argScale m c (ix1 r) * FloatOps.uitofp (F := Ideal) .f32 (argMask m c (ix1 r)) := by
  rw [scales_term, shapeCast_a_1a_apply, mulf_apply]
  rfl

end Cert.Bridge

end
-- ==== Proof.RefAt.lean ====
/-
  The reference's stages in explicit form at the ideal values.

  The reference computes the effective weight
    Weff[n, k] = w[n, k] + two * sum over r of (pm[n, r] * (al[r] * on[r])) * qm[r, k]
  (`on` the one-bit mask read as a float, `two` the reading of the word 0x40000000, never evaluated), and then
    y[mm, n] = sum over k of x[mm, k] * Weff[n, k],
  the second contraction reading the TRANSPOSE of Weff. Each stage read at an index is the generated reading of
  its operation; the composed index functions of the broadcasts, the transpose and the two contractions are
  identified with coordinate indices.
-/
import proofs.«128594_j20289425506440_2_alg».proof.Proof.Gen.ReferenceIdeal.Read

noncomputable section

open scoped BigOperators

namespace Cert.Bridge

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The composed index functions at coordinate indices -/

/-- The first contraction's left operand at output `(n, k)` and contracted coordinate `r` is read at `(n, r)`. -/
theorem lidx_v5_ix (n k : Fin 4096) (r : Fin 64) : lidx_main_v5 (ix2 n k) r = ix2 n r :=
  funext fun a => Fin.ext (by match a with | ⟨0, _⟩ => rfl | ⟨1, _⟩ => rfl)

/-- The first contraction's right operand at output `(n, k)` and contracted coordinate `r` is read at `(r, k)`. -/
theorem ridx_v5_ix (n k : Fin 4096) (r : Fin 64) : ridx_main_v5 (ix2 n k) r = ix2 r k :=
  funext fun a => Fin.ext (by match a with | ⟨0, _⟩ => rfl | ⟨1, _⟩ => rfl)

/-- The row broadcast [1,64] to [4096,64] reads row 0 at the same column. -/
theorem idx_v3_ix (n : Fin 4096) (r : Fin 64) : idx_main_v3 (ix2 n r) = ix2 (0 : Fin 1) r :=
  funext fun a => Fin.ext (by match a with | ⟨0, _⟩ => rfl | ⟨1, _⟩ => rfl)

/-- The broadcast [64] to [1,64] reads the column's coordinate. -/
theorem idx_v2_ix (r : Fin 64) : idx_main_v2 (ix2 (0 : Fin 1) r) = ix1 r :=
  funext fun a => Fin.ext (by match a with | ⟨0, _⟩ => rfl)

/-- The transpose at `(k, n)` reads `(n, k)`. -/
theorem idx_v9_ix (k n : Fin 4096) : idx_main_v9 (ix2 k n) = ix2 n k :=
  funext fun a => Fin.ext (by match a with | ⟨0, _⟩ => rfl | ⟨1, _⟩ => rfl)

/-- The second contraction's left operand at output `(mm, n)` and contracted coordinate `k` is read at `(mm, k)`. -/
theorem lidx_v10_ix (mm : Fin 8192) (n k : Fin 4096) : lidx_main_v10 (ix2 mm n) k = ix2 mm k :=
  funext fun a => Fin.ext (by match a with | ⟨0, _⟩ => rfl | ⟨1, _⟩ => rfl)

/-- The second contraction's right operand at output `(mm, n)` and contracted coordinate `k` is read at `(k, n)`. -/
theorem ridx_v10_ix (mm : Fin 8192) (n k : Fin 4096) : ridx_main_v10 (ix2 mm n) k = ix2 k n :=
  funext fun a => Fin.ext (by match a with | ⟨0, _⟩ => rfl | ⟨1, _⟩ => rfl)

/-! ## The effective weight at an index -/

/-- The effective weight at `(n, k)`: the weight there plus `two` times the sum over the 64 rank coordinates of
    (left factor at `(n, r)` times (scale at `r` times the mask at `r` read as a float)) times the right factor at
    `(r, k)`. The sum, the two products and the contraction are read stage by stage, outermost first. -/
theorem ref_weff_apply (x1 : (⟨S4096x4096, .f32⟩ : BufTy).Contents (Elt Ideal)) (x2 : (⟨S4096x64, .f32⟩ : BufTy).Contents (Elt Ideal))
    (x3 : (⟨S64, .f32⟩ : BufTy).Contents (Elt Ideal)) (x4 : (⟨S64x4096, .f32⟩ : BufTy).Contents (Elt Ideal))
    (x5 : (⟨S64, .i1⟩ : BufTy).Contents (Elt Ideal)) (n k : Fin 4096) :
    val_main_v8 (F := Ideal) x1 x2 x3 x4 x5 (ix2 n k)
      = x1 (ix2 n k) + Ideal.ofBits .f32 0x40000000#32
          * ∑ r : Fin 64, (x2 (ix2 n r) * (x3 (ix1 r) * FloatOps.uitofp (F := Ideal) .f32 (x5 (ix1 r)))) * x4 (ix2 r k) := by
  rw [val_main_v8_apply, val_main_v7_apply, val_main_v6_apply, val_main_cst_apply, val_main_v5_apply,
    Ideal.addf_def, Ideal.mulf_def, Ideal.ofBits_def]
  refine congrArg (fun s => x1 (ix2 n k) + Ideal.ofBits .f32 0x40000000#32 * s) (Finset.sum_congr rfl fun r _ => ?_)
  rw [lidx_v5_ix, ridx_v5_ix, val_main_v4_apply, val_main_v3_apply, idx_v3_ix, val_main_v2_apply, idx_v2_ix,
    val_main_v1_apply, val_main_v0_apply, Ideal.mulf_def, Ideal.mulf_def]

/-! ## The result at an index -/

/-- The result at `(mm, n)`: the sum over the 4096 contracted coordinates of the activation at `(mm, k)` times the
    effective weight at `(n, k)` (the contraction reads the transposed weight at `(k, n)`). -/
theorem ref_out_apply (x0 : (⟨S8192x4096, .f32⟩ : BufTy).Contents (Elt Ideal)) (x1 : (⟨S4096x4096, .f32⟩ : BufTy).Contents (Elt Ideal))
    (x2 : (⟨S4096x64, .f32⟩ : BufTy).Contents (Elt Ideal)) (x3 : (⟨S64, .f32⟩ : BufTy).Contents (Elt Ideal))
    (x4 : (⟨S64x4096, .f32⟩ : BufTy).Contents (Elt Ideal)) (x5 : (⟨S64, .i1⟩ : BufTy).Contents (Elt Ideal))
    (mm : Fin 8192) (n : Fin 4096) :
    val_main_v10 (F := Ideal) x0 x1 x2 x3 x4 x5 (ix2 mm n)
      = ∑ k : Fin 4096, x0 (ix2 mm k) * val_main_v8 (F := Ideal) x1 x2 x3 x4 x5 (ix2 n k) := by
  rw [val_main_v10_apply]
  refine Finset.sum_congr rfl fun k _ => ?_
  rw [lidx_v10_ix, ridx_v10_ix, val_main_v9_apply, idx_v9_ix]

end Cert.Bridge

end
-- ==== Proof.KernelValue.lean ====
/-
  The idealized kernel's result is the reference's. On the extended reals the first call leaves, at (n, k) of the
  effective-weight array, weight[n, k] + 2 · Σ_r (P[n, r] · (Λ[r] · mask[r])) · Q[r, k] — the reference's own sum,
  literal for literal — and the second call leaves, at (mm, n) of the result array, Σ_k x[mm, k] · W[n, k], the
  eight K-blocks of each run regrouped into the one sum over all columns (addition of extended reals is associative
  and commutative: no finiteness is used). The reference reads its transposed weight at (k, n), which is W[n, k].
-/
import proofs.«128594_j20289425506440_2_alg».proof.Proof.IdealWhole
import proofs.«128594_j20289425506440_2_alg».proof.Proof.WeffValue
import proofs.«128594_j20289425506440_2_alg».proof.Proof.AccValue
import proofs.«128594_j20289425506440_2_alg».proof.Proof.EntryValue
import proofs.«128594_j20289425506440_2_alg».proof.Proof.RefAt

set_option maxRecDepth 16384

noncomputable section

open scoped BigOperators

namespace Cert.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's argument arrays on core `c`, as launched. -/
abbrev ax (c : Dev nD) : (⟨S8192x4096, .f32⟩ : BufTy).Contents (Elt Ideal) := m ((c : Thread nD τ).loc main_arg0)
abbrev aw (c : Dev nD) : (⟨S4096x4096, .f32⟩ : BufTy).Contents (Elt Ideal) := m ((c : Thread nD τ).loc main_arg1)
abbrev ap (c : Dev nD) : (⟨S4096x64, .f32⟩ : BufTy).Contents (Elt Ideal) := m ((c : Thread nD τ).loc main_arg2)
abbrev al (c : Dev nD) : (⟨S64, .f32⟩ : BufTy).Contents (Elt Ideal) := m ((c : Thread nD τ).loc main_arg3)
abbrev aq (c : Dev nD) : (⟨S64x4096, .f32⟩ : BufTy).Contents (Elt Ideal) := m ((c : Thread nD τ).loc main_arg4)
abbrev ak (c : Dev nD) : (⟨S64, .i1⟩ : BufTy).Contents (Elt Ideal) := m ((c : Thread nD τ).loc main_arg5)

/-- The reference's last stage of the kernel's arguments: what both programs compute. -/
abbrev both (c : Dev nD) : (⟨S8192x4096, .f32⟩ : BufTy).Contents (Elt Ideal) :=
  Cert.ReferenceIdeal.Read.val_main_v10 (F := Ideal) (ax m c) (aw m c) (ap m c) (al m c) (aq m c) (ak m c)

/-- The second call finds the activations as launched: no host operation and no call writes them. -/
theorem acts_entry (c : Dev nD) : Whole.Vb (F := Ideal) m ρ c main_arg0 = m ((c : Thread nD τ).loc main_arg0) :=
  calc Whole.W2 m ρ c (Proc.devRef .tc main_arg0)
    _ = Whole.W1 m ρ c (Proc.devRef .tc main_arg0) := Whole.W2_of_ne m ρ c main_arg0 (by decide)
    _ = Whole.W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

/-- The second call finds the effective-weight array at what the first call's write-backs left. -/
theorem weff_entry (c : Dev nD) : Whole.Vb (F := Ideal) m ρ c main_v3 = weffG (Whole.Va m ρ) c :=
  (Whole.W2_arr m ρ c 4).trans (weff_final (Whole.Va m ρ) c)

/-- The effective-weight array is the reference's stage, entry by entry. -/
theorem weff_is_ref (c : Dev nD) (n k : Fin 4096) :
    weffG (Whole.Va m ρ) c (ix2 n k)
      = Cert.ReferenceIdeal.Read.val_main_v8 (F := Ideal) (aw m c) (ap m c) (al m c) (aq m c) (ak m c) (ix2 n k) := by
  have hW : arrW (Whole.Va m ρ) c = aw m c := weight_entry m ρ c
  have hP : arrP (Whole.Va m ρ) c = ap m c := left_entry m ρ c
  have hQ : arrQ (Whole.Va m ρ) c = aq m c := right_entry m ρ c
  have hL : ∀ r : Fin 64, arrL (Whole.Va m ρ) c (ix2 (0 : Fin 1) r)
      = argScale m c (ix1 r) * FloatOps.uitofp (F := Ideal) .f32 (argMask m c (ix1 r)) := fun r => scales_entry m ρ c r
  rw [weffG_apply, ref_weff_apply, hW, hP, hQ]
  simp only [hL]

/-- THE RESULT: the result array after the second call is the reference's last stage of the kernel's arguments. -/
theorem kernel_result (c : Dev nD) : (Acc.dat (Whole.Vb (F := Ideal) m ρ) c).arrAt 2 cfg1.N = both m c := by
  rw [acc_final]
  funext i
  obtain ⟨mm, n, rfl⟩ : ∃ (mm : Fin 8192) (n : Fin 4096), i = ix2 mm n := ⟨i 0, i 1, eq_ix2 i⟩
  rw [outSpec_apply]
  refine (Finset.sum_congr rfl fun k _ => ?_).trans (ref_out_apply (ax m c) (aw m c) (ap m c) (al m c) (aq m c) (ak m c) mm n).symm
  rw [acts_entry m ρ c, weff_entry m ρ c, weff_is_ref m ρ c n k]

end Cert.Bridge

end
-- ==== Proof.lean ====
/- The proof of `Cert.Claim` (proofs.«128594_j20289425506440_2_alg».proof.Defs): a dense linear layer whose weight carries a rank-64
   adaptive update, `x · (weight + 2 · ((P · (Λ · mask)) · Q))ᵀ`, computed by two pallas_calls — the first forms the
   effective weight block by block, the second multiplies by its transpose accumulating over eight K-blocks in a
   scratch buffer — against the reference's two matrix products on the host.
   Frames: each kernel program runs to the end, faults nowhere and leaves its arguments as launched, at its own float
   instance (Proof/BitsWeff, BitsAcc, BitsWhole for the program as printed; Proof/IdealWeff, IdealAcc, IdealWhole
   for the idealized one: per call the proof data, the body's run and the body obligation; then the three segments of
   the program chained); the reference's frame is its generated run with the result dropped.
   The idealization rewrote nothing, so what it must preserve is trivial.
   Equal results on the extended reals: the first call leaves the reference's effective weight entry by entry
   (Proof/PayWeff, WeffValue), the second the sum over all 4096 columns, its eight partial sums regrouped (Proof/PayAcc,
   SumBlocks, AccValue); the host operations before the calls leave the masked scales (Proof/EntryValue); the reference's
   stages read at an index (Proof/RefAt) are the same sums (Proof/KernelValue). Only associativity and commutativity of
   addition are used, so the finiteness of the inputs is never opened. -/
import proofs.«128594_j20289425506440_2_alg».proof.Defs
import proofs.«128594_j20289425506440_2_alg».proof.Proof.Gen.Kernel
import proofs.«128594_j20289425506440_2_alg».proof.Proof.Gen.KernelIdeal
import proofs.«128594_j20289425506440_2_alg».proof.Proof.Gen.ReferenceIdeal
import proofs.«128594_j20289425506440_2_alg».proof.Proof.Gen.Pre_finite_inputs
import proofs.«128594_j20289425506440_2_alg».proof.Proof.Gen.ReferenceIdeal.Run
import proofs.«128594_j20289425506440_2_alg».proof.Proof.Gen.ReferenceIdeal.Read
import proofs.«128594_j20289425506440_2_alg».proof.Proof.BitsWhole
import proofs.«128594_j20289425506440_2_alg».proof.Proof.IdealWhole
import proofs.«128594_j20289425506440_2_alg».proof.Proof.KernelValue
import Idealize.ShloMosaic.Adequacy
import Idealize.ShloMosaic.Init

noncomputable section

namespace Cert.Proof

open Idealize.ShloMosaic Idealize.SL.Sem

/-- The program as printed, at the word level: its arguments end as launched. -/
theorem frame_printed : Cert.frame_Kernel := fun m ρ _ => Cert.Kernel.Whole.frame (F := Bits) m ρ

/-- The idealized program, at the ideal instance. -/
theorem frame_ideal : Cert.frame_KernelIdeal := fun m ρ _ => Cert.KernelIdeal.Whole.frame (F := Ideal) m ρ

/-- The reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs, run from memories that agree on the arguments, end with the reference's last stage of
    those arguments in their result arrays. -/
theorem algebraic : Cert.algebraic_KernelIdeal_ReferenceIdeal := by
  intro m ρ m' ρ' _ hagree
  refine ⟨fun c => Cert.Bridge.both m c, ?_, ?_⟩
  · exact (θ_run Cert.KernelIdeal.defs _ _).mono
      (fun r h c => ⟨(h c).1.trans (Cert.Bridge.kernel_result m ρ c), (h c).2⟩)
      (Cert.KernelIdeal.Whole.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v10_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_printed, frame_ideal, frame_reference, trivial, algebraic⟩

end Cert.Proof

end
